-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S96x288 : Shape := ⟨2, ![96, 288]⟩
abbrev S288x32 : Shape := ⟨2, ![288, 32]⟩
abbrev S32 : Shape := ⟨1, ![32]⟩
abbrev S32x96 : Shape := ⟨2, ![32, 96]⟩
abbrev S96 : Shape := ⟨1, ![96]⟩
abbrev S2x800000 : Shape := ⟨2, ![2, 800000]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x288 : S_.BroadcastsInDim S96x288 (![] : Fin 0 → Fin S96x288.rank)
  reducesTo_S96x288_S_d0_1 : S96x288.ReducesTo [0, 1] S_
  bcast_S_S288x32 : S_.BroadcastsInDim S288x32 (![] : Fin 0 → Fin S288x32.rank)
  reducesTo_S288x32_S_d0_1 : S288x32.ReducesTo [0, 1] S_
  bcast_S_S32 : S_.BroadcastsInDim S32 (![] : Fin 0 → Fin S32.rank)
  reducesTo_S32_S_d0 : S32.ReducesTo [0] S_
  bcast_S_S32x96 : S_.BroadcastsInDim S32x96 (![] : Fin 0 → Fin S32x96.rank)
  reducesTo_S32x96_S_d0_1 : S32x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg4 : FVec F S32x96 .f32) (main_arg5 : FVec F S96 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x96 .f32 := Host.absf main_arg4
  let main_cst_6 : FVec F S_ .f32 := constant S_ .f32 0x7F800000#32
  let main_v20 : FVec F S32x96 .f32 := broadcastInDim S32x96 ![] bcast_S_S32x96 main_cst_6
  let main_v21 : IVec S32x96 1 := cmpf .olt main_v19 main_v20
  let main_c_7 : IVec S_ 1 := constantI S_ 1 1#1
  let main_v22 : IVec S_ 1 := (fun x v => Host.reduce IntOp.andi x v reducesTo_S32x96_S_d0_1 h_S_) main_v21 main_c_7
  let main_v23 : IVec S_ 1 := andi main_v18 main_v22
  let main_v24 : FVec F S96 .f32 := Host.absf main_arg5
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  main_v28

def fn {F : FTy → Type} [FloatOps F] (main_arg0 : FVec F S50000x96 .f32) (main_arg1 : FVec F S96x288 .f32) (main_arg2 : FVec F S288x32 .f32) (main_arg3 : FVec F S32 .f32) (main_arg4 : FVec F S32x96 .f32) (main_arg5 : FVec F S96 .f32) (main_arg6 : IVec S2x800000 32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x288 .f32 := Host.absf main_arg1
  let main_cst_0 : FVec F S_ .f32 := constant S_ .f32 0x7F800000#32
  let main_v5 : FVec F S96x288 .f32 := broadcastInDim S96x288 ![] bcast_S_S96x288 main_cst_0
  let main_v6 : IVec S96x288 1 := cmpf .olt main_v4 main_v5
  let main_c_1 : IVec S_ 1 := constantI S_ 1 1#1
  let main_v7 : IVec S_ 1 := (fun x v => Host.reduce IntOp.andi x v reducesTo_S96x288_S_d0_1 h_S_) main_v6 main_c_1
  let main_v8 : IVec S_ 1 := andi main_v3 main_v7
  let main_v9 : FVec F S288x32 .f32 := Host.absf main_arg2
  let main_cst_2 : FVec F S_ .f32 := constant S_ .f32 0x7F800000#32
  let main_v10 : FVec F S288x32 .f32 := broadcastInDim S288x32 ![] bcast_S_S288x32 main_cst_2
  let main_v11 : IVec S288x32 1 := cmpf .olt main_v9 main_v10
  let main_c_3 : IVec S_ 1 := constantI S_ 1 1#1
  let main_v12 : IVec S_ 1 := (fun x v => Host.reduce IntOp.andi x v reducesTo_S288x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S50000x96 : Shape := ⟨2, ![50000, 96]⟩
abbrev S96x288 : Shape := ⟨2, ![96, 288]⟩
abbrev S288x32 : Shape := ⟨2, ![288, 32]⟩
abbrev S32 : Shape := ⟨1, ![32]⟩
abbrev S32x96 : Shape := ⟨2, ![32, 96]⟩
abbrev S96 : Shape := ⟨1, ![96]⟩
abbrev S2x800000 : Shape := ⟨2, ![2, 800000]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x288 : Shape := ⟨2, ![50000, 288]⟩
abbrev S2000x96 : Shape := ⟨2, ![2000, 96]⟩
abbrev S2000x1 : Shape := ⟨2, ![2000, 1]⟩
abbrev S2000x288 : Shape := ⟨2, ![2000, 288]⟩
abbrev S850000x288 : Shape := ⟨2, ![850000, 288]⟩
abbrev S2000x32 : Shape := ⟨2, ![2000, 32]⟩
abbrev S1x32 : Shape := ⟨2, ![1, 32]⟩
abbrev S1x96 : Shape := ⟨2, ![1, 96]⟩

abbrev nBuf : Space → Nat
  | .hbm => 45
  | .vmem => 19
  | .smem => 0
  | _ => 0

abbrev bufTy : (tb : Table) → Fin (tcTables nBuf tb) → BufTy
  | .hbm, ⟨0, _⟩ => ⟨S50000x96, .f32⟩
  | .hbm, ⟨1, _⟩ => ⟨S96x288, .f32⟩
  | .hbm, ⟨2, _⟩ => ⟨S288x32, .f32⟩
  | .hbm, ⟨3, _⟩ => ⟨S32, .f32⟩
  | .hbm, ⟨4, _⟩ => ⟨S32x96, .f32⟩
  | .hbm, ⟨5, _⟩ => ⟨S96, .f32⟩
  | .hbm, ⟨6, _⟩ => ⟨S2x800000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x288, .bf16⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000x288, .bf16⟩
  | .hbm, ⟨39, _⟩ => ⟨S850000x288, .f32⟩
  | .hbm, ⟨40, _⟩ => ⟨S_, .f32⟩
  | .hbm, ⟨41, _⟩ => ⟨S50000x288, .f32⟩
  | .hbm, ⟨42, _⟩ => ⟨S850000x1, .i32⟩
  | .hbm, ⟨43, _⟩ => ⟨S50000x288, .f32⟩
  | .hbm, ⟨44, _⟩ => ⟨S50000x96, .f32⟩
  | .local _ .vmem, ⟨0, _⟩ => ⟨S2000x96, .f32⟩
  | .local _ .vmem, ⟨1, _⟩ => ⟨S2000x96, .f32⟩
  | .local _ .vmem, ⟨2, _⟩ => ⟨S96x288, .f32⟩
  | .local _ .vmem, ⟨3, _⟩ => ⟨S2000x1, .f32⟩
  | .local _ .vmem, ⟨4, _⟩ => ⟨S2000x1, .f32⟩
  | .local _ .vmem, ⟨5, _⟩ => ⟨S2000x288, .bf16⟩
  | .local _ .vmem, ⟨6, _⟩ => ⟨S2000x288, .bf16⟩
  | .local _ .vmem, ⟨7, _⟩ => ⟨S2000x288, .f32⟩
  | .local _ .vmem, ⟨8, _⟩ => ⟨S2000x288, .f32⟩
  | .local _ .vmem, ⟨9, _⟩ => ⟨S2000x1, .f32⟩
  | .local _ .vmem, ⟨10, _⟩ => ⟨S2000x1, .f32⟩
  | .local _ .vmem, ⟨11, _⟩ => ⟨S2000x96, .f32⟩
  | .local _ .vmem, ⟨12, _⟩ => ⟨S2000x96, .f32⟩
  | .local _ .vmem, ⟨13, _⟩ => ⟨S288x32, .f32⟩
  | .local _ .vmem, ⟨14, _⟩ => ⟨S32, .f32⟩
  | .local _ .vmem, ⟨15, _⟩ => ⟨S32x96, .f32⟩
  | .local _ .vmem, ⟨16, _⟩ => ⟨S96, .f32⟩
  | .local _ .vmem, ⟨17, _⟩ => ⟨S2000x96, .f32⟩
  | .local _ .vmem, ⟨18, _⟩ => ⟨S2000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x288 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x288 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S288x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S96 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x96 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  inb_S2000x96_S2000x96_0_0 : ∀ a, (![0, 0] : Fin 2 → Nat) a + S2000x96.size a ≤ S2000x96.size a
  h_S2000x96 : 0 < S2000x96.numel
  bitsLt_bf16_f32 : FTy.bits .bf16 < FTy.bits .f32
  inb_S96x288_S96x288_0_0 : ∀ a, (![0, 0] : Fin 2 → Nat) a + S96x288.size a ≤ S96x288.size a
  h_S96x288 : 0 < S96x288.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x288 : S2000x1.Broadcasts S2000x288
  inb_S2000x288_S2000x288_0_0 : ∀ a, (![0, 0] : Fin 2 → Nat) a + S2000x288.size a ≤ S2000x288.size a
  h_S2000x288 : 0 < S2000x288.numel
  packedbf16_S2000x288_S2000x288_0_0 : (Rect.unit (s := S2000x288) ![0, 0] S2000x288.size inb_S2000x288_S2000x288_0_0).PackedRows (EltTy.packing .bf16)
  bcast_S_S50000x288 : S_.BroadcastsInDim S50000x288 (![] : Fin 0 → Fin S50000x288.rank)
  shapeCasts_S2000x288_S2000x288 : S2000x288.ShapeCasts S2000x288
  inb_S288x32_S288x32_0_0 : ∀ a, (![0, 0] : Fin 2 → Nat) a + S288x32.size a ≤ S288x32.size a
  h_S288x32 : 0 < S288x32.numel
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  inb_S32x96_S32x96_0_0 : ∀ a, (![0, 0] : Fin 2 → Nat) a + S32x96.size a ≤ S32x96.size a
  h_S32x96 : 0 < S32x96.numel
  inb_S96_S96_0 : ∀ a, (![0] : Fin 1 → Nat) a + S96.size a ≤ S96.size a
  h_S96 : 0 < S96.numel
  shapeCasts_S96_S1x96 : S96.ShapeCasts S1x96
  broadcasts_S1x96_S2000x96 : S1x96.Broadcasts S2000x96
  scatter_S50000_S850000x1_S850000_n_0_0_1_wf : ScatterDims.WF S50000 S850000x1 S850000 [] [0] [0] 1
  dot_S2000x96_S96x288_S2000x288_1_0_0_1_n_n_wf : DotDims.WF S2000x96 S96x288 S2000x288 [1] [0] [0] [1] [] []
  gather_S50000x288_S850000x1_S850000x288_1_0_n_n_0_1_1288_wf : GatherDims.WF S50000x288 S850000x1 S850000x288 [1] [0] [] [0] [] 1 ![1, 288]
  scatter_S50000x288_S850000x1_S850000x288_1_0_0_1_wf : ScatterDims.WF S50000x288 S850000x1 S850000x288 [1] [0] [0] 1
  dot_S2000x288_S288x32_S2000x32_1_0_0_1_n_n_wf : DotDims.WF S2000x288 S288x32 S2000x32 [1] [0] [0] [1] [] []
  dot_S2000x32_S32x96_S2000x96_1_0_0_1_n_n_wf : DotDims.WF S2000x32 S32x96 S2000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x288.size a ≤ S96x288.size a
  hwx0_1 : ∀ i : grid0.Coords, EltTy.bits .f32 = 32 ∨ (Rect.block (s := S96x288) S96x288.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x288.size a ≤ S50000x288.size a
  hwx0_3 : ∀ i : grid0.Coords, EltTy.bits .bf16 = 32 ∨ (Rect.block (s := S50000x288) S2000x288.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x288.size a ≤ S50000x288.size a
  hwx1_0 : ∀ i : grid1.Coords, EltTy.bits .f32 = 32 ∨ (Rect.block (s := S50000x288) S2000x288.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x96.size a ≤ S50000x96.size a
  hwx1_2 : ∀ i : grid1.Coords, EltTy.bits .f32 = 32 ∨ (Rect.block (s := S50000x96) S2000x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S288x32.size a ≤ S288x32.size a
  hwx1_3 : ∀ i : grid1.Coords, EltTy.bits .f32 = 32 ∨ (Rect.block (s := S288x32) S288x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x96.size a ≤ S32x96.size a
  hwx1_5 : ∀ i : grid1.Coords, EltTy.bits .f32 = 32 ∨ (Rect.block (s := S32x96) S32x96.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S96.size a ≤ S96.size a
  hwx1_6 : ∀ i : grid1.Coords, EltTy.bits .f32 = 32 ∨ (Rect.block (s := S96) S96.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x96.size a ≤ S50000x96.size a
  hwx1_7 : ∀ i : grid1.Coords, EltTy.bits .f32 = 32 ∨ (Rect.block (s := S50000x96) S2000x96.size (cc1_transform_7 i) (hinb1_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x96_S96x288_S2000x288_1_0_0_1_n_n : DotDims S2000x96 S96x288 S2000x288 where
  lhsContracting := [1]
  rhsContracting := [0]
  lhsNonContracting := [0]
  rhsNonContracting := [1]
  lhsBatch := []
  rhsBatch := []
  wf := dot_S2000x96_S96x288_S2000x288_1_0_0_1_n_n_wf
def gather_S50000x288_S850000x1_S850000x288_1_0_n_n_0_1_1288 : GatherDims S50000x288 S850000x1 S850000x288 where
  offsetDims := [1]
  collapsedSliceDims := [0]
  operandBatchingDims := []
  startIndicesBatchingDims := []
  startIndexMap := [0]
  indexVectorDim := 1
  sliceSizes := ![1, 288]
  wf := gather_S50000x288_S850000x1_S850000x288_1_0_n_n_0_1_1288_wf
def scatter_S50000x288_S850000x1_S850000x288_1_0_0_1 : ScatterDims S50000x288 S850000x1 S850000x288 where
  updateWindowDims := [1]
  insertedWindowDims := [0]
  scatterDimsToOperandDims := [0]
  indexVectorDim := 1
  wf := scatter_S50000x288_S850000x1_S850000x288_1_0_0_1_wf
def dot_S2000x288_S288x32_S2000x32_1_0_0_1_n_n : DotDims S2000x288 S288x32 S2000x32 where
  lhsContracting := [1]
  rhsContracting := [0]
  lhsNonContracting := [0]
  rhsNonContracting := [1]
  lhsBatch := []
  rhsBatch := []
  wf := dot_S2000x288_S288x32_S2000x32_1_0_0_1_n_n_wf
def dot_S2000x32_S32x96_S2000x96_1_0_0_1_n_n : DotDims S2000x32 S32x96 S2000x96 where
  lhsContracting := [1]
  rhsContracting := [0]
  lhsNonContracting := [0]
  rhsNonContracting := [1]
  lhsBatch := []
  rhsBatch := []
  wf := dot_S2000x32_S32x96_S2000x96_1_0_0_1_n_n_wf

abbrev win0_0 : Pipeline.Window sig grid0 :=
  Pipeline.Window.ofSpec (Memref.whole main_arg0) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S96x288.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x288.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x288.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x96.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S288x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S32x96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg5) S96.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S2000x96.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x96 : Shape := ⟨2, ![50000, 96]⟩
abbrev S96x288 : Shape := ⟨2, ![96, 288]⟩
abbrev S288x32 : Shape := ⟨2, ![288, 32]⟩
abbrev S32 : Shape := ⟨1, ![32]⟩
abbrev S32x96 : Shape := ⟨2, ![32, 96]⟩
abbrev S96 : Shape := ⟨1, ![96]⟩
abbrev S2x800000 : Shape := ⟨2, ![2, 800000]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x288 : Shape := ⟨2, ![50000, 288]⟩
abbrev S850000x288 : Shape := ⟨2, ![850000, 288]⟩
abbrev S50000x32 : Shape := ⟨2, ![50000, 32]⟩
abbrev S1x32 : Shape := ⟨2, ![1, 32]⟩
abbrev S1x96 : Shape := ⟨2, ![1, 96]⟩

abbrev nBuf : Space → Nat
  | .hbm => 76
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S96x288, .f32⟩
  | .hbm, ⟨2, _⟩ => ⟨S288x32, .f32⟩
  | .hbm, ⟨3, _⟩ => ⟨S32, .f32⟩
  | .hbm, ⟨4, _⟩ => ⟨S32x96, .f32⟩
  | .hbm, ⟨5, _⟩ => ⟨S96, .f32⟩
  | .hbm, ⟨6, _⟩ => ⟨S2x800000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x288, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x288, .f32⟩
  | .hbm, ⟨57, _⟩ => ⟨S850000x1, .f32⟩
  | .hbm, ⟨58, _⟩ => ⟨S850000x288, .f32⟩
  | .hbm, ⟨59, _⟩ => ⟨S850000x288, .f32⟩
  | .hbm, ⟨60, _⟩ => ⟨S_, .f32⟩
  | .hbm, ⟨61, _⟩ => ⟨S50000x288, .f32⟩
  | .hbm, ⟨62, _⟩ => ⟨S850000x1, .i32⟩
  | .hbm, ⟨63, _⟩ => ⟨S50000x288, .f32⟩
  | .hbm, ⟨64, _⟩ => ⟨S50000x32, .f32⟩
  | .hbm, ⟨65, _⟩ => ⟨S1x32, .f32⟩
  | .hbm, ⟨66, _⟩ => ⟨S50000x32, .f32⟩
  | .hbm, ⟨67, _⟩ => ⟨S50000x32, .f32⟩
  | .hbm, ⟨68, _⟩ => ⟨S_, .f32⟩
  | .hbm, ⟨69, _⟩ => ⟨S50000x32, .f32⟩
  | .hbm, ⟨70, _⟩ => ⟨S50000x32, .f32⟩
  | .hbm, ⟨71, _⟩ => ⟨S50000x96, .f32⟩
  | .hbm, ⟨72, _⟩ => ⟨S1x96, .f32⟩
  | .hbm, ⟨73, _⟩ => ⟨S50000x96, .f32⟩
  | .hbm, ⟨74, _⟩ => ⟨S50000x96, .f32⟩
  | .hbm, ⟨75, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x288_0_1 : S850000x1.BroadcastsInDim S850000x288 (![0, 1] : Fin 2 → Fin S850000x288.rank)
  bcast_S_S50000x288 : S_.BroadcastsInDim S50000x288 (![] : Fin 0 → Fin S50000x288.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x96_S96x288_S50000x288_1_0_0_1_n_n_wf : DotDims.WF S50000x96 S96x288 S50000x288 [1] [0] [0] [1] [] []
  gather_S50000x288_S850000x1_S850000x288_1_0_n_n_0_1_1288_wf : GatherDims.WF S50000x288 S850000x1 S850000x288 [1] [0] [] [0] [] 1 ![1, 288]
  scatter_S50000x288_S850000x1_S850000x288_1_0_0_1_wf : ScatterDims.WF S50000x288 S850000x1 S850000x288 [1] [0] [0] 1
  dot_S50000x288_S288x32_S50000x32_1_0_0_1_n_n_wf : DotDims.WF S50000x288 S288x32 S50000x32 [1] [0] [0] [1] [] []
  dot_S50000x32_S32x96_S50000x96_1_0_0_1_n_n_wf : DotDims.WF S50000x32 S32x96 S50000x96 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x96_S96x288_S50000x288_1_0_0_1_n_n : DotDims S50000x96 S96x288 S50000x288 where
  lhsContracting := [1]
  rhsContracting := [0]
  lhsNonContracting := [0]
  rhsNonContracting := [1]
  lhsBatch := []
  rhsBatch := []
  wf := dot_S50000x96_S96x288_S50000x288_1_0_0_1_n_n_wf
def gather_S50000x288_S850000x1_S850000x288_1_0_n_n_0_1_1288 : GatherDims S50000x288 S850000x1 S850000x288 where
  offsetDims := [1]
  collapsedSliceDims := [0]
  operandBatchingDims := []
  startIndicesBatchingDims := []
  startIndexMap := [0]
  indexVectorDim := 1
  sliceSizes := ![1, 288]
  wf := gather_S50000x288_S850000x1_S850000x288_1_0_n_n_0_1_1288_wf
def scatter_S50000x288_S850000x1_S850000x288_1_0_0_1 : ScatterDims S50000x288 S850000x1 S850000x288 where
  updateWindowDims := [1]
  insertedWindowDims := [0]
  scatterDimsToOperandDims := [0]
  indexVectorDim := 1
  wf := scatter_S50000x288_S850000x1_S850000x288_1_0_0_1_wf
def dot_S50000x288_S288x32_S50000x32_1_0_0_1_n_n : DotDims S50000x288 S288x32 S50000x32 where
  lhsContracting := [1]
  rhsContracting := [0]
  lhsNonContracting := [0]
  rhsNonContracting := [1]
  lhsBatch := []
  rhsBatch := []
  wf := dot_S50000x288_S288x32_S50000x32_1_0_0_1_n_n_wf
def dot_S50000x32_S32x96_S50000x96_1_0_0_1_n_n : DotDims S50000x32 S32x96 S50000x96 where
  lhsContracting := [1]
  rhsContracting := [0]
  lhsNonContracting := [0]
  rhsNonContracting := [1]
  lhsBatch := []
  rhsBatch := []
  wf := dot_S50000x32_S32x96_S50000x96_1_0_0_1_n_n_wf

class Facts : Prop extends Facts₀ where

variable [Facts]
-- ==== Proof.KRun.lean ====
/-
  The kernel program's run with its result named.

  The program is four stretches of host operations around two kernel launches.  Its buffer contents at each boundary
  form a fold from the launch memory: a host stretch applies its operations, a launch replaces the arrays of its
  windows by what its write-backs leave and keeps every other buffer.  Every weakly fair execution terminates without
  a fault in a state that holds, at every unscoped buffer, the last boundary's contents; read at the result buffer and
  at the seven argument buffers this gives the result as the fold's value there and the arguments as launched.
-/
import proofs.«125442_j28183575396996_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the seven arguments as launched. -/
theorem run : θ_run defs (onTc (τ := τ) (main (F := F))) ⟨m, fun _ => 0, ρ⟩ (fun r => ∀ c : Dev nD,
      r.2.mem ((c.tc : Thread nD τ).loc main_v28) = W6 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v28 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.KRun

end
-- ==== Proof.LibScatterSet.lean ====
/-
  A scatter whose body returns the update, read at one index.

  The scatter runs through its updates in order; update j either lands at an operand index (its start, read signed
  off the index array, plus its window coordinate, when that is inside the operand on every axis) and replaces the
  entry there, or is dropped.  Read at one index i' the result is therefore decided by the updates that land at i':
  if none does, the entry is the operand's; if exactly one does, the entry is that update.  (With several the last
  one in the order would win; that case is not needed here.)  An update lands at i' exactly when start plus window
  coordinate equals i''s coordinate on every axis.

  For the dimension numbers of a point-wise write into a matrix — no window axes, both operand axes inserted, the
  index array [N, 2] holding one (row, column) pair per update, updates [N] — update n has start
  (idx(n, 0), idx(n, 1)) read signed and no window offset, so it lands at (a, b) exactly when idx(n, 0) = a and
  idx(n, 1) = b as integers.  Nothing here depends on a program.
-/
import Idealize.ShloMosaic.PureOps
import Idealize.ShloMosaic.Lib.ValueIdx

namespace Cert.ScatterSet

open Idealize.ShloMosaic Idealize.ShloMosaic.ValueIdx

section Fold

variable {ι β γ : Type}

/-- A left fold of steps that each either overwrite the entry at `i'` (when `P n`) or leave it: when no step of the
    list overwrites it, the entry is the initial one. -/
theorem foldl_apply_of_none (step : (γ → β) → ι → (γ → β)) (P : ι → Prop) (i' : γ)
    (hneg : ∀ r n, ¬ P n → step r n i' = r i') :
    ∀ (l : List ι) (x : γ → β), (∀ n ∈ l, ¬ P n) → l.foldl step x i' = x i'
  | [], _, _ => rfl
  | a :: l, x, h => by
    rw [List.foldl_cons, foldl_apply_of_none step P i' hneg l (step x a) fun n hn => h n (List.mem_cons_of_mem _ hn),
      hneg _ _ (h a (List.mem_cons.2 (Or.inl rfl)))]

/-- When exactly one member `n0` of the list overwrites the entry at `i'`, the entry ends as what `n0` wrote. -/
theorem foldl_apply_of_unique (step : (γ → β) → ι → (γ → β)) (P : ι → Prop) (v : ι → β) (i' : γ)
    (hpos : ∀ r n, P n → step r n i' = v n) (hneg : ∀ r n, ¬ P n → step r n i' = r i') (n0 : ι) (hP : P n0) :
    ∀ (l : List ι) (x : γ → β), n0 ∈ l → (∀ n ∈ l, P n → n = n0) → l.foldl step x i' = v n0
  | [], _, h, _ => nomatch h
  | a :: l, x, hmem, huniq => by
    rw [List.foldl_cons]
    by_cases hl : n0 ∈ l
    · exact foldl_apply_of_unique step P v i' hpos hneg n0 hP l (step x a) hl fun n hn => huniq n (List.mem_cons_of_mem _ hn)
    · have ha : a = n0 := by
        rcases List.mem_cons.1 hmem with h | h
        · exact h.symm
        · exact absurd h hl
      rw [foldl_apply_of_none step P i' hneg l (step x a)
        (fun n hn hp => hl (huniq n (List.mem_cons_of_mem _ hn) hp ▸ hn)), ha, hpos _ _ hP]

end Fold

section Scatter

variable {α : Type} {w : Nat} {s si u : Shape}

/-- One step of the scatter whose body returns the update, read at the index the update lands at. -/
theorem step_hit (d : ScatterDims s si u) (idx : IVec si w) (upd : u.Idx → α) (r : s.Idx → α) (n : Fin u.numel)
    (i' : s.Idx) (h : d.resultIdx? (u.rowMajor.symm n) idx = some i') :
    (match d.resultIdx? (u.rowMajor.symm n) idx with
      | some i => fun i' => if i' = i then (fun (_ : α) b => b) (r i) (upd (u.rowMajor.symm n)) else r i'
      | none => r) i' = upd (u.rowMajor.symm n) := by
  rw [h]; simp

/-- One step of the scatter, read at an index the update does not land at. -/
theorem step_miss (d : ScatterDims s si u) (idx : IVec si w) (upd : u.Idx → α) (r : s.Idx → α) (n : Fin u.numel)
    (i' : s.Idx) (h : ¬ d.resultIdx? (u.rowMajor.symm n) idx = some i') :
    (match d.resultIdx? (u.rowMajor.symm n) idx with
      | some i => fun i' => if i' = i then (fun (_ : α) b => b) (r i) (upd (u.rowMajor.symm n)) else r i'
      | none => r) i' = r i' := by
  cases hres : d.resultIdx? (u.rowMajor.symm n) idx with
  | none => rfl
  | some i =>
    have hi : ¬ i' = i := fun e => h (by rw [hres, e])
    simp [hi]

/-- No update lands at `i'`: the scatter leaves the operand's entry. -/
theorem scatter_miss (d : ScatterDims s si u) (x : s.Idx → α) (idx : IVec si w) (upd : u.Idx → α) (i' : s.Idx)
    (h : ∀ j : u.Idx, d.resultIdx? j idx ≠ some i') : Host.scatter d (fun _ b => b) x idx upd i' = x i' := by
  unfold Host.scatter
  exact foldl_apply_of_none _ (fun n => d.resultIdx? (u.rowMajor.symm n) idx = some i') i'
    (fun r n => step_miss d idx upd r n i') _ x (fun n _ => h _)

/-- Exactly one update `j0` lands at `i'`: the scatter's entry there is that update. -/
theorem scatter_hit (d : ScatterDims s si u) (x : s.Idx → α) (idx : IVec si w) (upd : u.Idx → α) (i' : s.Idx)
    (j0 : u.Idx) (h0 : d.resultIdx? j0 idx = some i') (huniq : ∀ j : u.Idx, d.resultIdx? j idx = some i' → j = j0) :
    Host.scatter d (fun _ b => b) x idx upd i' = upd j0 := by
  unfold Host.scatter
  refine (foldl_apply_of_unique _ (fun n => d.resultIdx? (u.rowMajor.symm n) idx = some i')
    (fun n => upd (u.rowMajor.symm n)) i' (fun r n => step_hit d idx upd r n i') (fun r n => step_miss d idx upd r n i')
    (u.rowMajor j0) ?_ (List.finRange u.numel) x (List.mem_finRange _) ?_).trans
    (congrArg upd (Equiv.symm_apply_apply _ _))
  · show d.resultIdx? (u.rowMajor.symm (u.rowMajor j0)) idx = some i'
    rw [Equiv.symm_apply_apply]; exact h0
  · intro n _ hn
    have := huniq _ hn
    rw [← this, Equiv.apply_symm_apply]

end Scatter

section ResultIdx

variable {w : Nat} {s si u : Shape}

/-- An update lands at `i'` exactly when, on every axis, its start plus its window coordinate is `i'`'s coordinate. -/
theorem resultIdx?_eq_some_iff_forall (d : ScatterDims s si u) (j : u.Idx) (idx : IVec si w) (i' : s.Idx) :
    d.resultIdx? j idx = some i' ↔ ∀ a, d.start j idx a + d.window j a = ((i' a).val : Int) := by
  unfold ScatterDims.resultIdx?
  constructor
  · intro h a
    split at h
    · rename_i hin
      have h1 := congrArg Fin.val (congrFun (Option.some.inj h) a)
      have h2 := (hin a).1
      simp only at h1
      omega
    · exact absurd h (by simp)
  · intro h
    have hin : ∀ a, 0 ≤ d.start j idx a + d.window j a ∧ d.start j idx a + d.window j a < s.size a := fun a => by
      have := (i' a).isLt
      rw [h a]; omega
    rw [dif_pos hin]
    congr 1
    funext a
    apply Fin.ext
    show (d.start j idx a + d.window j a).toNat = (i' a).val
    rw [h a]; simp

end ResultIdx

section Pairs

variable {w R Cn N : Nat}

/-- Update n reads component c of its start at (n, c) of the index array. -/
theorem siIdx_eq (wf) (j : (⟨1, ![N]⟩ : Shape).Idx) (c : Fin 2) :
    ScatterDims.siIdx (s := ⟨2, ![R, Cn]⟩) (si := ⟨2, ![N, 2]⟩) (u := ⟨1, ![N]⟩) ⟨[], [0, 1], [0, 1], 1, wf⟩ j c = ix2 (j 0) c := by
  funext b
  match b with
  | ⟨0, _⟩ => rfl
  | ⟨1, _⟩ => rfl

/-- Its start on operand axis a is the word at (n, a), read signed. -/
theorem start_eq (wf) (idx : IVec ⟨2, ![N, 2]⟩ w) (j : (⟨1, ![N]⟩ : Shape).Idx) (a : Fin 2) :
    ScatterDims.start (s := ⟨2, ![R, Cn]⟩) (si := ⟨2, ![N, 2]⟩) (u := ⟨1, ![N]⟩) ⟨[], [0, 1], [0, 1], 1, wf⟩ j idx a
      = (idx (ix2 (j 0) a)).toInt := by
  match a with
  | ⟨0, _⟩ =>
    unfold ScatterDims.start
    exact (dif_pos (List.mem_cons.2 (Or.inl rfl))).trans (congrArg (fun k => (idx k).toInt) (siIdx_eq wf j _))
  | ⟨1, _⟩ =>
    unfold ScatterDims.start
    exact (dif_pos (List.mem_cons.2 (Or.inr (List.mem_cons.2 (Or.inl rfl))))).trans
      (congrArg (fun k => (idx k).toInt) (siIdx_eq wf j _))

/-- Both operand axes are inserted: there is no window offset. -/
theorem window_eq (wf) (j : (⟨1, ![N]⟩ : Shape).Idx) (a : Fin 2) :
    ScatterDims.window (s := ⟨2, ![R, Cn]⟩) (si := ⟨2, ![N, 2]⟩) (u := ⟨1, ![N]⟩) ⟨[], [0, 1], [0, 1], 1, wf⟩ j a = 0 := by
  unfold ScatterDims.window
  refine dif_neg ?_
  match a with
  | ⟨0, _⟩ => simp [ScatterDims.sKept, Shape.kept]
  | ⟨1, _⟩ => simp [ScatterDims.sKept, Shape.kept]

/-- Update n lands at (a, b) exactly when its row word is a and its column word is b, as integers. -/
theorem resultIdx?_eq_some_iff (d : ScatterDims ⟨2, ![R, Cn]⟩ ⟨2, ![N, 2]⟩ ⟨1, ![N]⟩)
    (h1 : d.updateWindowDims = []) (h2 : d.insertedWindowDims = [0, 1]) (h3 : d.scatterDimsToOperandDims = [0, 1])
    (h4 : d.indexVectorDim = 1) (idx : IVec ⟨2, ![N, 2]⟩ w) (j : (⟨1, ![N]⟩ : Shape).Idx)
    (i' : (⟨2, ![R, Cn]⟩ : Shape).Idx) :
    d.resultIdx? j idx = some i' ↔
      (idx (ix2 (j 0) 0)).toInt = ((i' 0).val : Int) ∧ (idx (ix2 (j 0) 1)).toInt = ((i' 1).val : Int) := by
  obtain ⟨uw, iw, sd, iv, wf⟩ := d
  dsimp only at h1 h2 h3 h4
  subst h1 h2 h3 h4
  rw [resultIdx?_eq_some_iff_forall, Fin.forall_fin_two, start_eq, start_eq, window_eq, window_eq]
  simp

end Pairs

section PairsAt

variable {α : Type} {w R Cn N : Nat}

/-- A point-wise write into a matrix, read where exactly one update's (row, column) pair points. -/
theorem scatter_pairs_hit (d : ScatterDims ⟨2, ![R, Cn]⟩ ⟨2, ![N, 2]⟩ ⟨1, ![N]⟩)
    (h1 : d.updateWindowDims = []) (h2 : d.insertedWindowDims = [0, 1]) (h3 : d.scatterDimsToOperandDims = [0, 1])
    (h4 : d.indexVectorDim = 1) (x : (⟨2, ![R, Cn]⟩ : Shape).Idx → α) (idx : IVec ⟨2, ![N, 2]⟩ w)
    (upd : (⟨1, ![N]⟩ : Shape).Idx → α) (i' : (⟨2, ![R, Cn]⟩ : Shape).Idx) (n0 : Fin N)
    (hr : (idx (ix2 n0 0)).toInt = ((i' 0).val : Int)) (hc : (idx (ix2 n0 1)).toInt = ((i' 1).val : Int))
    (huniq : ∀ n : Fin N, (idx (ix2 n 0)).toInt = ((i' 0).val : Int) → (idx (ix2 n 1)).toInt = ((i' 1).val : Int) →
      n = n0) :
    Host.scatter d (fun _ b => b) x idx upd i' = upd (ix1 n0) := by
  refine scatter_hit d x idx upd i' (ix1 n0) ((resultIdx?_eq_some_iff d h1 h2 h3 h4 idx (ix1 n0) i').2 ⟨hr, hc⟩) ?_
  intro j hj
  obtain ⟨hjr, hjc⟩ := (resultIdx?_eq_some_iff d h1 h2 h3 h4 idx j i').1 hj
  exact (eq_ix1 j).trans (congrArg (fun k : Fin N => ix1 k) (huniq (j 0) hjr hjc))

/-- A point-wise write into a matrix, read where no update's (row, column) pair points. -/
theorem scatter_pairs_miss (d : ScatterDims ⟨2, ![R, Cn]⟩ ⟨2, ![N, 2]⟩ ⟨1, ![N]⟩)
    (h1 : d.updateWindowDims = []) (h2 : d.insertedWindowDims = [0, 1]) (h3 : d.scatterDimsToOperandDims = [0, 1])
    (h4 : d.indexVectorDim = 1) (x : (⟨2, ![R, Cn]⟩ : Shape).Idx → α) (idx : IVec ⟨2, ![N, 2]⟩ w)
    (upd : (⟨1, ![N]⟩ : Shape).Idx → α) (i' : (⟨2, ![R, Cn]⟩ : Shape).Idx)
    (h : ∀ n : Fin N, (idx (ix2 n 0)).toInt = ((i' 0).val : Int) → ¬ (idx (ix2 n 1)).toInt = ((i' 1).val : Int)) :
    Host.scatter d (fun _ b => b) x idx upd i' = x i' := by
  refine scatter_miss d x idx upd i' fun j hj => ?_
  obtain ⟨hjr, hjc⟩ := (resultIdx?_eq_some_iff d h1 h2 h3 h4 idx j i').1 hj
  exact h (j 0) hjr hjc

end PairsAt

end Cert.ScatterSet
-- ==== Proof.LibRealEntries.lean ====
/-
  Finite sums and products of extended reals that are real numbers.

  An extended real is here called real when it is the coercion of a real number. Real entries are closed under
  products, sums, finite sums and the logistic function; the coercion of a finite sum of reals is the sum of the
  coercions; and a real factor moves across a finite sum of real entries, (∑ᵢ fᵢ) · c = ∑ᵢ fᵢ · c — a step that is
  not a law of the extended reals in general: with ∞ + (−∞) = −∞ there, (∞ + (−∞)) · (−1) = ∞ while
  ∞ · (−1) + (−∞) · (−1) = −∞. Nothing here depends on a program.
-/
import Idealize.ShloMosaic.PureOps.Ideal
import Mathlib.Algebra.BigOperators.Fin

noncomputable section

namespace Cert.RealEntries

open Idealize.ShloMosaic

/-- An extended real that is a real number. -/
def IsReal (x : EReal) : Prop := ∃ a : ℝ, x = (a : EReal)

theorem isReal_coe (a : ℝ) : IsReal (a : EReal) := ⟨a, rfl⟩

theorem isReal_zero : IsReal (0 : EReal) := ⟨0, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The logistic function of a real number is a real number. -/
theorem IsReal.logistic {x : EReal} (hx : IsReal x) : IsReal (Ideal.logistic x) := by
  obtain ⟨a, rfl⟩ := hx
  exact ⟨_, Ideal.logistic_coe a⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite sum of real numbers is a real number. -/
theorem IsReal.sum {ι : Type*} (s : Finset ι) (f : ι → EReal) (hf : ∀ i ∈ s, IsReal (f i)) : IsReal (∑ i ∈ s, f i) := by
  classical
  induction s using Finset.induction_on with
  | empty => simpa using isReal_zero
  | insert i s hi ih =>
    rw [Finset.sum_insert hi]
    exact (hf i (Finset.mem_insert_self i s)).add (ih fun j hj => hf j (Finset.mem_insert_of_mem hj))

/-- A real factor moves across a finite sum of real numbers. -/
theorem sum_mul_of_isReal {ι : Type*} (s : Finset ι) (f : ι → EReal) (c : EReal) (hf : ∀ i ∈ s, IsReal (f i))
    (hc : IsReal c) : (∑ i ∈ s, f i) * c = ∑ i ∈ s, f i * c := by
  classical
  obtain ⟨b, rfl⟩ := hc
  induction s using Finset.induction_on with
  | empty => simp
  | insert i s hi ih =>
    rw [Finset.sum_insert hi, Finset.sum_insert hi, ← ih fun j hj => hf j (Finset.mem_insert_of_mem hj)]
    obtain ⟨a, ha⟩ := hf i (Finset.mem_insert_self i s)
    obtain ⟨t, ht⟩ := IsReal.sum s f fun j hj => hf j (Finset.mem_insert_of_mem hj)
    rw [ha, ht, ← EReal.coe_add, ← EReal.coe_mul, ← EReal.coe_mul, ← EReal.coe_mul, ← EReal.coe_add, add_mul]

end Cert.RealEntries

end
-- ==== Proof.LibSegmentSum.lean ====
/-
  A segment sum, read at one index, and its linearity.

  A segment sum takes E updates (edges), each carrying a segment id, and adds every update into the operand entry
  (or row) its id names.  As a scatter whose body adds, over a start-index array of shape [E, 1], update e has its
  start on the operand's first axis at the word (e, 0) of the index array, read signed; an update whose id is
  outside the operand is dropped.  At the ideal (extended-real) values the scatter's entry is the operand's entry
  plus the exact sum of the updates that land on it, so read at one index n (or (n, k)) the result is

      x n + ∑ over the edges e with id(e) = n of upd e        (a vector of E updates into N entries),
      x (n, k) + ∑ over the edges e with id(e) = n of upd (e, k)   (E rows of width C into N rows).

  An update lands on an entry exactly when, on every operand axis, its start plus its window coordinate is the
  entry's coordinate.  For a vector there is no window axis: update e lands at n exactly when id(e) = n.  For rows
  the second axis is a window axis with start 0: update (e, c) lands at (n, k) exactly when id(e) = n and c = k.

  Linearity: over real entries, ∑ₑ ((∑ₖ a(e,k) · w(k)) + c) = (∑ₖ (∑ₑ a(e,k)) · w(k)) + (∑ₑ 1) · c.  A real factor
  moves across a finite sum of real entries; that is not a law of the extended reals in general.  Nothing here
  depends on a program.
-/
import Idealize.ShloMosaic.PureOps
import Idealize.ShloMosaic.PureOps.Ideal
import Idealize.ShloMosaic.Lib.ValueIdx
import Mathlib.Algebra.BigOperators.Fin
import proofs.«125442_j28183575396996_2_alg».proof.Proof.LibScatterSet
import proofs.«125442_j28183575396996_2_alg».proof.Proof.LibRealEntries

noncomputable section
namespace Cert.SegmentSum
open Idealize.ShloMosaic Idealize.ShloMosaic.ValueIdx Cert.RealEntries

/-- The updates (edges) whose segment id — the word at (e, 0) of the start-index array, read signed — is n. -/
def edgesAt {E N w : Nat} (idx : IVec ⟨2, ![E, 1]⟩ w) (n : Fin N) : Finset (Fin E) :=
  Finset.univ.filter fun e => (idx (ix2 e (0 : Fin 1))).toInt = ((n.val : Nat) : Int)

/-- Membership in the edges of segment n: the edge's id, read signed, is n. -/
theorem mem_edgesAt {E N w : Nat} (idx : IVec ⟨2, ![E, 1]⟩ w) (n : Fin N) (e : Fin E) :
    e ∈ edgesAt idx n ↔ (idx (ix2 e (0 : Fin 1))).toInt = ((n.val : Nat) : Int) := by
  unfold edgesAt
  simp

section Vec

variable {w E N : Nat}

/-- Update e reads the one component of its start at (e, 0) of the index array. -/
theorem siIdx_vec (wf) (j : (⟨1, ![E]⟩ : Shape).Idx) (c : Fin 1) :
    ScatterDims.siIdx (s := ⟨1, ![N]⟩) (si := ⟨2, ![E, 1]⟩) (u := ⟨1, ![E]⟩) ⟨[], [0], [0], 1, wf⟩ j c = ix2 (j 0) c := by
  funext b
  match b with
  | ⟨0, _⟩ => rfl
  | ⟨1, _⟩ => rfl

/-- Its start on the operand's one axis is the word at (e, 0), read signed. -/
theorem start_vec (wf) (idx : IVec ⟨2, ![E, 1]⟩ w) (j : (⟨1, ![E]⟩ : Shape).Idx) (a : Fin 1) :
    ScatterDims.start (s := ⟨1, ![N]⟩) (si := ⟨2, ![E, 1]⟩) (u := ⟨1, ![E]⟩) ⟨[], [0], [0], 1, wf⟩ j idx a
      = (idx (ix2 (j 0) (0 : Fin 1))).toInt := by
  match a with
  | ⟨0, _⟩ =>
    unfold ScatterDims.start
    exact (dif_pos (List.mem_cons.2 (Or.inl rfl))).trans (congrArg (fun k => (idx k).toInt) (siIdx_vec wf j _))

/-- The operand's one axis is inserted: there is no window offset. -/
theorem window_vec (wf) (j : (⟨1, ![E]⟩ : Shape).Idx) (a : Fin 1) :
    ScatterDims.window (s := ⟨1, ![N]⟩) (si := ⟨2, ![E, 1]⟩) (u := ⟨1, ![E]⟩) ⟨[], [0], [0], 1, wf⟩ j a = 0 := by
  unfold ScatterDims.window
  refine dif_neg ?_
  match a with
  | ⟨0, _⟩ => simp [ScatterDims.sKept, Shape.kept]

/-- Update e lands at entry i' exactly when its id is i', as integers. -/
theorem resultIdx?_vec_iff (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (j : (⟨1, ![E]⟩ : Shape).Idx)
    (i' : (⟨1, ![N]⟩ : Shape).Idx) :
    d.resultIdx? j idx = some i' ↔ (idx (ix2 (j 0) (0 : Fin 1))).toInt = ((i' 0).val : Int) := by
  obtain ⟨uw, iw, sd, iv, wf⟩ := d
  dsimp only at h1 h2 h3 h4
  subst h1 h2 h3 h4
  rw [Cert.ScatterSet.resultIdx?_eq_some_iff_forall, Fin.forall_fin_one, start_vec, window_vec]
  simp

end Vec

section Rows

variable {w E N C : Nat}

/-- Update (e, c) reads the one component of its start at (e, 0) of the index array. -/
theorem siIdx_rows (wf) (j : (⟨2, ![E, C]⟩ : Shape).Idx) (c : Fin 1) :
    ScatterDims.siIdx (s := ⟨2, ![N, C]⟩) (si := ⟨2, ![E, 1]⟩) (u := ⟨2, ![E, C]⟩) ⟨[1], [0], [0], 1, wf⟩ j c = ix2 (j 0) c := by
  funext b
  match b with
  | ⟨0, _⟩ => rfl
  | ⟨1, _⟩ => rfl

/-- Its start on the operand's first axis is the word at (e, 0), read signed. -/
theorem start_rows_zero (wf) (idx : IVec ⟨2, ![E, 1]⟩ w) (j : (⟨2, ![E, C]⟩ : Shape).Idx) :
    ScatterDims.start (s := ⟨2, ![N, C]⟩) (si := ⟨2, ![E, 1]⟩) (u := ⟨2, ![E, C]⟩) ⟨[1], [0], [0], 1, wf⟩ j idx 0
      = (idx (ix2 (j 0) (0 : Fin 1))).toInt := by
  unfold ScatterDims.start
  exact (dif_pos (List.mem_cons.2 (Or.inl rfl))).trans (congrArg (fun k => (idx k).toInt) (siIdx_rows wf j _))

/-- Its start on the operand's second axis, which the map does not name, is 0. -/
theorem start_rows_one (wf) (idx : IVec ⟨2, ![E, 1]⟩ w) (j : (⟨2, ![E, C]⟩ : Shape).Idx) :
    ScatterDims.start (s := ⟨2, ![N, C]⟩) (si := ⟨2, ![E, 1]⟩) (u := ⟨2, ![E, C]⟩) ⟨[1], [0], [0], 1, wf⟩ j idx 1 = 0 := by
  unfold ScatterDims.start
  refine dif_neg ?_
  simp

/-- The operand's first axis is inserted: no window offset there. -/
theorem window_rows_zero (wf) (j : (⟨2, ![E, C]⟩ : Shape).Idx) :
    ScatterDims.window (s := ⟨2, ![N, C]⟩) (si := ⟨2, ![E, 1]⟩) (u := ⟨2, ![E, C]⟩) ⟨[1], [0], [0], 1, wf⟩ j 0 = 0 := by
  unfold ScatterDims.window
  refine dif_neg ?_
  simp [ScatterDims.sKept, Shape.kept]

/-- On the operand's second axis the window coordinate is the update's column. -/
theorem window_rows_one (wf) (j : (⟨2, ![E, C]⟩ : Shape).Idx) :
    ScatterDims.window (s := ⟨2, ![N, C]⟩) (si := ⟨2, ![E, 1]⟩) (u := ⟨2, ![E, C]⟩) ⟨[1], [0], [0], 1, wf⟩ j 1 = (j 1).val := by
  unfold ScatterDims.window
  have hmem : (1 : Fin 2) ∈ ScatterDims.sKept (s := ⟨2, ![N, C]⟩) (si := ⟨2, ![E, 1]⟩) (u := ⟨2, ![E, C]⟩) ⟨[1], [0], [0], 1, wf⟩ := by
    simp [ScatterDims.sKept, Shape.kept]
  exact (dif_pos hmem).trans rfl

/-- Update (e, c) lands at (n, k) exactly when its id is n, as integers, and c = k. -/
theorem resultIdx?_rows_iff (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (j : (⟨2, ![E, C]⟩ : Shape).Idx)
    (i' : (⟨2, ![N, C]⟩ : Shape).Idx) :
    d.resultIdx? j idx = some i' ↔
      (idx (ix2 (j 0) (0 : Fin 1))).toInt = ((i' 0).val : Int) ∧ (j 1).val = (i' 1).val := by
  obtain ⟨uw, iw, sd, iv, wf⟩ := d
  dsimp only at h1 h2 h3 h4
  subst h1 h2 h3 h4
  rw [Cert.ScatterSet.resultIdx?_eq_some_iff_forall, Fin.forall_fin_two, start_rows_zero, start_rows_one,
    window_rows_zero, window_rows_one]
  simp

end Rows

/-- A segment sum of a vector: dimension numbers update_window_dims = [], inserted_window_dims = [0], scatter_dims_to_operand_dims = [0], index_vector_dim = 1. -/
theorem scatterAdd_vec_apply {E N w : Nat} (d : ScatterDims ⟨1, ![N]⟩ ⟨2, ![E, 1]⟩ ⟨1, ![E]⟩)
    (h1 : d.updateWindowDims = []) (h2 : d.insertedWindowDims = [0]) (h3 : d.scatterDimsToOperandDims = [0]) (h4 : d.indexVectorDim = 1)
    (x : (⟨1, ![N]⟩ : Shape).Idx → EReal) (idx : IVec ⟨2, ![E, 1]⟩ w) (upd : (⟨1, ![E]⟩ : Shape).Idx → EReal) (n : Fin N) :
    Ideal.hostScatterAdd d x idx upd (ix1 n) = x (ix1 n) + ∑ e ∈ edgesAt idx n, upd (ix1 e) := by
  unfold Ideal.hostScatterAdd
  congr 1
  refine Finset.sum_nbij' (fun j => (j 0 : Fin E)) (fun e => ix1 e) ?_ ?_ ?_ ?_ ?_
  · intro j hj
    rw [Finset.mem_filter] at hj
    exact (mem_edgesAt idx n _).2 ((resultIdx?_vec_iff d h1 h2 h3 h4 idx j (ix1 n)).1 hj.2)
  · intro e he
    rw [Finset.mem_filter]
    exact ⟨Finset.mem_univ _, (resultIdx?_vec_iff d h1 h2 h3 h4 idx (ix1 e) (ix1 n)).2 ((mem_edgesAt idx n e).1 he)⟩
  · intro j _
    exact (eq_ix1 j).symm
  · intro e _
    rfl
  · intro j _
    exact congrArg upd (eq_ix1 j)

/-- A segment sum of the rows of a matrix: update_window_dims = [1], inserted_window_dims = [0], scatter_dims_to_operand_dims = [0], index_vector_dim = 1. -/
theorem scatterAdd_rows_apply {E N C w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0]) (h4 : d.indexVectorDim = 1)
    (x : (⟨2, ![N, C]⟩ : Shape).Idx → EReal) (idx : IVec ⟨2, ![E, 1]⟩ w) (upd : (⟨2, ![E, C]⟩ : Shape).Idx → EReal) (n : Fin N) (k : Fin C) :
    Ideal.hostScatterAdd d x idx upd (ix2 n k) = x (ix2 n k) + ∑ e ∈ edgesAt idx n, upd (ix2 e k) := by
  unfold Ideal.hostScatterAdd
  congr 1
  refine Finset.sum_nbij' (fun j => (j 0 : Fin E)) (fun e => ix2 e k) ?_ ?_ ?_ ?_ ?_
  · intro j hj
    rw [Finset.mem_filter] at hj
    exact (mem_edgesAt idx n _).2 ((resultIdx?_rows_iff d h1 h2 h3 h4 idx j (ix2 n k)).1 hj.2).1
  · intro e he
    rw [Finset.mem_filter]
    exact ⟨Finset.mem_univ _,
      (resultIdx?_rows_iff d h1 h2 h3 h4 idx (ix2 e k) (ix2 n k)).2 ⟨(mem_edgesAt idx n e).1 he, rfl⟩⟩
  · intro j hj
    rw [Finset.mem_filter] at hj
    have hk : (j 1 : Fin C) = k := Fin.ext ((resultIdx?_rows_iff d h1 h2 h3 h4 idx j (ix2 n k)).1 hj.2).2
    exact (congrArg (fun c : Fin C => ix2 (j 0 : Fin E) c) hk).symm.trans (eq_ix2 j).symm
  · intro e _
    rfl
  · intro j hj
    rw [Finset.mem_filter] at hj
    have hk : (j 1 : Fin C) = k := Fin.ext ((resultIdx?_rows_iff d h1 h2 h3 h4 idx j (ix2 n k)).1 hj.2).2
    exact congrArg upd ((eq_ix2 j).trans (congrArg (fun c : Fin C => ix2 (j 0 : Fin E) c) hk))

/-- Linearity of a segment sum over real entries: summing (row · weights + bias) over a set of edges is (summed rows) · weights + (number of edges, as a sum of ones) · bias. -/
theorem segment_linear {ι κ : Type*} [Fintype κ] (s : Finset ι) (a : ι → κ → EReal) (wt : κ → EReal) (c : EReal)
    (ha : ∀ e k, IsReal (a e k)) (hw : ∀ k, IsReal (wt k)) (hc : IsReal c) :
    ∑ e ∈ s, ((∑ k, a e k * wt k) + c) = (∑ k, (∑ e ∈ s, a e k) * wt k) + (∑ _e ∈ s, (1 : EReal)) * c := by
  rw [Finset.sum_add_distrib, Finset.sum_comm]
  congr 1
  · exact Finset.sum_congr rfl fun k _ => (sum_mul_of_isReal s (fun e => a e k) (wt k) (fun e _ => ha e k) (hw k)).symm
  · rw [sum_mul_of_isReal s (fun _ => (1 : EReal)) c (fun _ _ => ⟨1, EReal.coe_one.symm⟩) hc]
    exact Finset.sum_congr rfl fun _ _ => (one_mul c).symm

end Cert.SegmentSum
end
-- ==== Proof.LibGatherRows.lean ====
/-
  A row gather read at an index. What `x[idx]` of a table `x : [N, C]` at an integer vector lowers to: a gather along
  axis 0 with whole rows as slices (offset axis 1, axis 0 collapsed, slice sizes `[1, C]`) over the indices laid out as a
  column `[R, 1]`. Result entry `(f, k)` is the table's entry `(row f, k)`, where `row f` is the start index at `f` read as
  a signed integer and clamped into `[0, N − 1]`. So the gather selects rows by a function of the indices alone and
  keeps columns: it commutes with anything done to the table row by row. Nothing here depends on a program.
-/
import Idealize.ShloMosaic.Lib.ValueIdx

namespace Cert.KernelIdeal.Hand

open Idealize.ShloMosaic Idealize.ShloMosaic.ValueIdx

section Rows
variable {α : Type}

/-- The dimension numbers of a row gather from a table `[N, C]` at start indices `[R, 1]` into `[R, C]`; their conditions
    `wf` are decided on a program's literal shapes. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row the gather reads for result row `f`: the start index there, signed, clamped into `[0, N − 1]`. -/
def rowOf {N R w : Nat} (hN : 0 < N) (idx : IVec ⟨2, ![R, 1]⟩ w) (f : Fin R) : Fin N :=
  ⟨min (idx (ix2 f (0 : Fin 1))).toInt.toNat (N - 1), by omega⟩

/-- THE ROW GATHER READ AT `(f, k)`: the table at `(rowOf f, k)`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (f : Fin R) (k : Fin C) :
    Host.gather (rowDims N R C wf) x idx (ix2 f k) = x (ix2 (rowOf hN idx f) k) := by
  unfold Host.gather
  congr 1
  funext a
  refine Fin.ext ?_
  match a with
  | ⟨0, _⟩ =>
    show (rowDims N R C wf).start (ix2 f k) idx 0 + (rowDims N R C wf).batchCoord (ix2 f k) 0
      + (rowDims N R C wf).offCoord (ix2 f k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 f k) ⟨List.idxOf (0 : Fin 2) (rowDims N R C wf).startIndexMap,
        List.idxOf_lt_length_iff.2 (List.mem_singleton.mpr rfl)⟩ = ix2 f (0 : Fin 1) := by
      funext b; refine Fin.ext ?_
      match b with
      | ⟨0, _⟩ => rfl
      | ⟨1, _⟩ => rfl
    rw [hsi]
    rfl
  | ⟨1, _⟩ =>
    show (rowDims N R C wf).start (ix2 f k) idx 1 + (rowDims N R C wf).batchCoord (ix2 f k) 1
      + (rowDims N R C wf).offCoord (ix2 f k) 1 = _
    rw [GatherDims.batchCoord_eq_zero _ _ _ List.not_mem_nil]
    unfold GatherDims.start
    have h10 : (1 : Fin 2) ≠ 0 := by decide
    rw [dif_neg (show (1 : Fin 2) ∉ (rowDims N R C wf).startIndexMap from
      fun h => absurd (List.mem_singleton.mp h) h10)]
    have hk : (1 : Fin 2) ∈ (rowDims N R C wf).sKept :=
      (GatherDims.mem_sKept _ _).mpr ⟨fun h => absurd (List.mem_singleton.mp h) h10, List.not_mem_nil⟩
    unfold GatherDims.offCoord
    rw [dif_pos hk]
    simp only [Nat.zero_add]
    rfl

end Rows

end Cert.KernelIdeal.Hand
-- ==== Proof.LibSoftmaxRow.lean ====
/-
  One row of softmax attention on the extended reals, free of any program and of any shape.

  For a row of logits `l` over `n` keys, the row maximum is the fold of `max` over the row from an accumulator value
  `b`; the softmax weight of key `k` is `exp (l k - M) / ∑ k', exp (l k' - M)` at the ideal exponential and quotient; one
  output entry is the weights against a column of values. Two laws: taking the maximum with the accumulator's value once
  more changes nothing, and multiplication by a non-negative real number distributes over every finite sum of extended
  reals (infinite terms included), so a scale on every entry of one factor of a contraction is a scale on the contracted
  sum.
-/
import Idealize.ShloMosaic.PureOps.Ideal

noncomputable section

namespace Cert.Attn

open Idealize.ShloMosaic

/-- A row's maximum: the fold of `max` over the row, from the accumulator's value `b`. -/
def rowMax {n : ℕ} (b : EReal) (l : Fin n → EReal) : EReal :=
  (Finset.univ : Finset (Fin n)).fold max b l

/-- The softmax weight of key `k` in a row of logits `l`. -/
def weight {n : ℕ} (b : EReal) (l : Fin n → EReal) (k : Fin n) : EReal :=
  Ideal.div (Ideal.exp (l k - rowMax b l)) (∑ k' : Fin n, Ideal.exp (l k' - rowMax b l))

/-- One output entry: the softmax weights of the row against one column of values. -/
def attnRow {n : ℕ} (b : EReal) (l v : Fin n → EReal) : EReal :=
  ∑ k : Fin n, weight b l k * v k

/-- The accumulator's value is below the fold that starts from it, so taking the maximum with it again changes nothing. -/
theorem max_rowMax {n : ℕ} (b : EReal) (l : Fin n → EReal) : max b (rowMax b l) = rowMax b l :=
  max_eq_right ((Finset.le_fold_max b).mpr (Or.inl le_rfl))

/-- Multiplication by a non-negative real number distributes over a finite sum of extended reals. -/
theorem sum_mul_coe {ι : Type} (s : Finset ι) (a : ι → EReal) (r : ℝ) (hr : 0 ≤ r) :
    ∑ d ∈ s, a d * (r : EReal) = (∑ d ∈ s, a d) * (r : EReal) := by
  classical
  refine Finset.induction_on s (by simp) (fun x s hx ih => ?_)
  rw [Finset.sum_insert hx, Finset.sum_insert hx, ih,
    EReal.right_distrib_of_nonneg_of_ne_top (EReal.coe_nonneg.mpr hr) (EReal.coe_ne_top r)]

/-- Scaling every query entry before the contraction is scaling the contracted sum. -/
theorem scale_inside {n : ℕ} (q k : Fin n → EReal) (r : ℝ) (hr : 0 ≤ r) :
    ∑ d : Fin n, q d * (r : EReal) * k d = (∑ d : Fin n, q d * k d) * (r : EReal) := by
  rw [← sum_mul_coe Finset.univ (fun d => q d * k d) r hr]
  exact Finset.sum_congr rfl fun d _ => mul_right_comm _ _ _

end Cert.Attn

end
-- ==== Proof.Spec.lean ====
/-
  A graph convolution with symmetric degree normalisation followed by a two-layer update, entry by entry on the
  extended reals.

  Nodes n < 50000 carry rows of 96 channels; there are 850000 edges (800000 given ones and one self-loop per node),
  each with a source node and a destination node given as 32-bit words.  A destination word read signed names the
  node an edge lands on (edges whose word names no node land nowhere); a source word, read signed and clamped into the
  node range, names the row an edge reads.  With d(n) the normalising factor of node n (the guarded reciprocal square
  root of its in-degree) and  dense(r, c) = Σ_k x(r, k) · W(k, c)  the projected features:

    * the edge-wise form scales every message by both endpoint factors before it is summed,
        featEdge(n, c) = 0 + Σ_{e lands on n} dense(src e, c) · (d(src e) · d(dst' e)),
      dst' e the destination word wrapped and clamped like a source;
    * the node-wise form scales each projected row once by its own factor, sums the plain rows, and scales the sum
      once by the receiving node's factor,
        featNode(n, c) = (0 + Σ_{e lands on n} dense(src e, c) · d(src e)) · d(n).

  The update is  out(n, j) = x(n, j) + (Σ_k max(Σ_c feat(n, c) · W1(c, k) + b1(k), 0) · W2(k, j) + b2(j)).

  The two forms agree whenever every factor d(n) is a non-negative real number and dst' e = n for every edge e landing
  on n: multiplication by a non-negative real distributes over any finite sum of extended reals, and multiplication is
  associative.  No finiteness of x or W is needed.
-/
import Idealize.ShloMosaic.PureOps.Ideal
import Idealize.ShloMosaic.Lib.ValueIdx
import Idealize.ShloMosaic.Lib.IdealHost
import proofs.«125442_j28183575396996_2_alg».proof.Proof.LibSegmentSum
import proofs.«125442_j28183575396996_2_alg».proof.Proof.LibGatherRows
import proofs.«125442_j28183575396996_2_alg».proof.Proof.LibSoftmaxRow

noncomputable section

namespace Cert.Gcn

open Idealize.ShloMosaic Idealize.ShloMosaic.ValueIdx Cert.SegmentSum Cert.KernelIdeal.Hand

/-- A matrix of extended reals with a rows and b columns. -/
abbrev Mat (a b : Nat) := (⟨2, ![a, b]⟩ : Shape).Idx → EReal
/-- A vector of extended reals. -/
abbrev Vc (a : Nat) := (⟨1, ![a]⟩ : Shape).Idx → EReal
/-- One 32-bit word per edge, laid out as a column. -/
abbrev EdgeWords := IVec ⟨2, ![850000, 1]⟩ 32

theorem nodes_pos : 0 < 50000 := by decide

/-- The float word of zero, as both programs write it. -/
abbrev zeroW : EReal := Ideal.ofBits .f32 0x00000000#32

/-- The projected features: row r of x against column c of W. -/
def dense (x : Mat 50000 96) (W : Mat 96 288) (r : Fin 50000) (c : Fin 288) : EReal :=
  ∑ k : Fin 96, x (ix2 r k) * W (ix2 k c)

/-- The node an edge reads its message from. -/
abbrev srcRow (src : EdgeWords) (e : Fin 850000) : Fin 50000 := rowOf nodes_pos src e

/-- The projected row scaled by its own node's factor (the first kernel call's output). -/
def projScaled (x : Mat 50000 96) (W : Mat 96 288) (d : Vc 50000) (r : Fin 50000) (c : Fin 288) : EReal :=
  dense x W r c * d (ix1 r)

/-- Node-wise normalisation: plain rows summed over the edges landing on n, the sum scaled once. -/
def featNode (x : Mat 50000 96) (W : Mat 96 288) (d : Vc 50000) (src dst : EdgeWords) (n : Fin 50000) (c : Fin 288) : EReal :=
  (zeroW + ∑ e ∈ edgesAt dst n, projScaled x W d (srcRow src e) c) * d (ix1 n)

/-- Edge-wise normalisation: every message scaled by both endpoint factors, then summed. -/
def featEdge (x : Mat 50000 96) (W : Mat 96 288) (d : Vc 50000) (src dst dstw : EdgeWords) (n : Fin 50000) (c : Fin 288) : EReal :=
  zeroW + ∑ e ∈ edgesAt dst n, dense x W (srcRow src e) c * (d (ix1 (srcRow src e)) * d (ix1 (srcRow dstw e)))

/-- The hidden layer of the update: relu of the features against W1 plus b1. -/
def hidden (feat : Fin 50000 → Fin 288 → EReal) (W1 : Mat 288 32) (b1 : Vc 32) (n : Fin 50000) (k : Fin 32) : EReal :=
  max ((∑ c : Fin 288, feat n c * W1 (ix2 c k)) + b1 (ix1 k)) zeroW

/-- The update with its residual. -/
def out (feat : Fin 50000 → Fin 288 → EReal) (x : Mat 50000 96) (W1 : Mat 288 32) (b1 : Vc 32) (W2 : Mat 32 96) (b2 : Vc 96)
    (n : Fin 50000) (j : Fin 96) : EReal :=
  x (ix2 n j) + ((∑ k : Fin 32, hidden feat W1 b1 n k * W2 (ix2 k j)) + b2 (ix1 j))

/-- What the first kernel call leaves in its output array, as one function of the arrays it reads: the projected
    features, each row scaled by the row's entry of the factor column. -/
def regionProj (x : Mat 50000 96) (W : Mat 96 288) (d2 : Mat 50000 1) : Mat 50000 288 :=
  fun i => (∑ k : Fin 96, x (ix2 (i 0) k) * W (ix2 k (i 1))) * d2 (ix2 (i 0) (0 : Fin 1))

/-- What the second kernel call leaves in its output array: the update of the summed rows `fr` scaled by the factor
    column, with the residual. -/
def regionUpd (fr : Mat 50000 288) (d2 : Mat 50000 1) (x : Mat 50000 96) (W1 : Mat 288 32) (b1 : Vc 32) (W2 : Mat 32 96)
    (b2 : Vc 96) : Mat 50000 96 :=
  fun i => out (fun n c => fr (ix2 n c) * d2 (ix2 n (0 : Fin 1))) x W1 b1 W2 b2 (i 0) (i 1)

/-- The two normalisations agree when every factor is a non-negative real and every edge landing on n has n as its
    wrapped destination. -/
theorem featNode_eq_featEdge (x : Mat 50000 96) (W : Mat 96 288) (d : Vc 50000) (src dst dstw : EdgeWords)
    (hd : ∀ n : Fin 50000, ∃ t : ℝ, 0 ≤ t ∧ d (ix1 n) = (t : EReal))
    (hw : ∀ (n : Fin 50000) (e : Fin 850000), e ∈ edgesAt dst n → srcRow dstw e = n)
    (n : Fin 50000) (c : Fin 288) :
    featNode x W d src dst n c = featEdge x W d src dst dstw n c := by
  obtain ⟨t, ht0, ht⟩ := hd n
  unfold featNode featEdge
  rw [ht, EReal.right_distrib_of_nonneg_of_ne_top (EReal.coe_nonneg.mpr ht0) (EReal.coe_ne_top t),
    ← Cert.Attn.sum_mul_coe _ _ t ht0]
  have hz : zeroW * (t : EReal) = zeroW := by
    show Ideal.ofBits .f32 0x00000000#32 * (t : EReal) = Ideal.ofBits .f32 0x00000000#32
    rw [Ideal.ofBits_zero_f32, zero_mul]
  rw [hz]
  refine congrArg (fun s => zeroW + s) (Finset.sum_congr rfl fun e he => ?_)
  unfold projScaled
  rw [hw n e he, ht, mul_assoc]

/-- Equal features give equal updates. -/
theorem out_congr (f g : Fin 50000 → Fin 288 → EReal) (h : ∀ n c, f n c = g n c) (x : Mat 50000 96) (W1 : Mat 288 32)
    (b1 : Vc 32) (W2 : Mat 32 96) (b2 : Vc 96) (n : Fin 50000) (j : Fin 96) :
    out f x W1 b1 W2 b2 n j = out g x W1 b1 W2 b2 n j := by
  have : f = g := funext fun n => funext fun c => h n c
  rw [this]

end Cert.Gcn

end
-- ==== Proof.LibTypedRef.lean ====
/-
  A typed reference to a buffer carries the equation between the buffer's type and the value's type, and a value
  crosses between the two by transport along it.  Carried to the buffer's type and back (or back and forth the other
  way) a value is unchanged.  A host line written over typed references wraps its function in one crossing per operand
  and one per result; when many such lines are read back as one composed term the crossings nest in pairs, result of
  one line against operand of the next, and rewriting with these equations removes every pair, leaving the plain
  composition of the lines' functions.
-/
import Idealize.ShloMosaic.Lib.StableHlo

namespace Cert.LibTypedRef

open Idealize.ShloMosaic Idealize.ShloMosaic.StableHlo

variable {sig : RefSig} {Val : EltTy → Type} {T : BufTy}

/-- A value carried to the buffer's own type and back is the value. -/
theorem ofBuf_toBuf (x : TRef sig T) (v : T.Contents Val) : x.ofBuf (x.toBuf v) = v := by
  obtain ⟨r, rfl, h2, h3⟩ := x
  rfl

/-- Contents of the buffer carried to the value's type and back are the contents. -/
theorem toBuf_ofBuf (x : TRef sig T) (v : x.ref.ty.Contents Val) : x.toBuf (x.ofBuf v) = v := by
  obtain ⟨r, rfl, h2, h3⟩ := x
  rfl

end Cert.LibTypedRef
-- ==== Proof.KHost.lean ====
/-
  The kernel program's host operations, read at the buffers its two launches consume.

  Before the first launch the host splits the edge list into source and destination words and appends one self-loop
  per node (srcVec, dstVec), counts each node's in-degree by a segment sum of ones (degVec), and takes the guarded
  reciprocal square root of the count (dinv), which it lays out as a column (dinvCol).  Between the launches it wraps
  negative source words by the node count, gathers the first launch's rows at the sources and sums them by
  destination (agg).  Each boundary's contents at a buffer is the composed value of the operations that wrote it;
  buffers no operation writes keep their launch contents.  Read at one entry, the gather-and-sum is the zero word
  plus the sum, over the edges landing on the node, of the gathered rows' entries.
-/
import proofs.«125442_j28183575396996_2_alg».proof.Proof.Gen.KernelIdeal.Frame
import proofs.«125442_j28183575396996_2_alg».proof.Proof.Spec
import Idealize.ShloMosaic.Lib.StableHlo.Run
import Idealize.ShloMosaic.Lib.IdealHost
import proofs.«125442_j28183575396996_2_alg».proof.Proof.LibTypedRef
import proofs.«125442_j28183575396996_2_alg».proof.Proof.LibGatherRows
import proofs.«125442_j28183575396996_2_alg».proof.Proof.LibSegmentSum

set_option maxRecDepth 16384

noncomputable section

namespace Cert.KernelIdeal.KHost

open Idealize.ShloMosaic Idealize.ShloMosaic.TcCoe Idealize.SL.Sem Idealize.ShloMosaic.StableHlo Idealize.ShloMosaic.ValueIdx
open Cert.Gcn Cert.KernelIdeal Cert.KernelIdeal.Gen

/-- The edge list as the program receives it: two rows of 800000 words. -/
abbrev Arg6 := IVec S2x800000 32
abbrev Words := IVec S850000 32

/-- The source words: row 0 of the edge list, then the node numbers (the self-loops). -/
def srcVec (x6 : Arg6) : Words :=
  concatenate S850000 0 [⟨S800000, shapeCast _ (extractStridedSlice S1x800000 ![0, 0] x6 slices_S2x800000_S1x800000_0_0) shapeCasts_S1x800000_S800000⟩, ⟨S50000, iotaInDim S50000 32 0⟩] concatenates_S800000_S50000_S850000_d0

/-- The destination words: row 1 of the edge list, then the node numbers. -/
def dstVec (x6 : Arg6) : Words :=
  concatenate S850000 0 [⟨S800000, shapeCast _ (extractStridedSlice S1x800000 ![1, 0] x6 slices_S2x800000_S1x800000_1_0) shapeCasts_S1x800000_S800000⟩, ⟨S50000, iotaInDim S50000 32 0⟩] concatenates_S800000_S50000_S850000_d0

/-- A word vector as a column. -/
def colOf (v : Words) : IVec S850000x1 32 :=
  broadcastInDim S850000x1 ![0] bcast_S850000_S850000x1_0 v

/-- Negative words wrapped by the node count. -/
def wrapWords (v : Words) : Words :=
  select (cmpi .slt v (broadcastInDim S850000 ![] bcast_S_S850000 (constantI S_ 32 0#32)))
    (addi v (broadcastInDim S850000 ![] bcast_S_S850000 (constantI S_ 32 50000#32))) v

/-- Each node's in-degree: ones summed by destination into the zero splat. -/
def degVec (x6 : Arg6) : FVec Ideal S50000 .f32 :=
  Host.scatterAdd (F := Ideal) scatter_S50000_S850000x1_S850000_n_0_0_1
    (broadcastInDim S50000 ![] bcast_S_S50000 (constant (F := Ideal) S_ .f32 0x00000000#32))
    (colOf (dstVec x6))
    (broadcastInDim S850000 ![] bcast_S_S850000 (constant (F := Ideal) S_ .f32 0x3F800000#32))

/-- The normalising factors: the reciprocal square root of the degree where it is positive, zero elsewhere. -/
def dinv (x6 : Arg6) : FVec Ideal S50000 .f32 :=
  select (cmpf .ogt (degVec x6) (broadcastInDim S50000 ![] bcast_S_S50000 (constant (F := Ideal) S_ .f32 0x00000000#32)))
    (Host.rsqrt (F := Ideal) (degVec x6))
    (broadcastInDim S50000 ![] bcast_S_S50000 (constant (F := Ideal) S_ .f32 0x00000000#32))

/-- The factors as a column. -/
def dinvCol (x6 : Arg6) : FVec Ideal S50000x1 .f32 :=
  broadcastInDim S50000x1 ![0] bcast_S50000_S50000x1_0 (dinv x6)

/-- The rows of `hs` gathered at the wrapped sources and summed by destination into the zero splat. -/
def agg (hs : FVec Ideal S50000x288 .bf16) (src dst : Words) : FVec Ideal S50000x288 .f32 :=
  Host.scatterAdd (F := Ideal) scatter_S50000x288_S850000x1_S850000x288_1_0_0_1
    (broadcastInDim S50000x288 ![] bcast_S_S50000x288 (constant (F := Ideal) S_ .f32 0x00000000#32))
    (colOf dst)
    (extf .f32 (Host.gather gather_S50000x288_S850000x1_S850000x288_1_0_n_n_0_1_1288 hs (colOf (wrapWords src))) bitsLt_bf16_f32)

variable (m : (ℓ : Loc nD τ sig) → Buf (Elt Ideal) ℓ) (ρ : Dev nD → PrngReg) (c : Dev nD)

/-! ## Region 0's entry -/

theorem W3_v5 : W3 m ρ c (Proc.devRef .tc main_v5) = srcVec (m ((c : Thread nD τ).loc main_arg6)) := by
  show StableHlo.after hostOps0_2 (StableHlo.after hostOps0_1 (StableHlo.after hostOps0 (W0 m ρ c))) (Proc.devRef .tc main_v5) = _
  after_results
  rfl

theorem W3_v6 : W3 m ρ c (Proc.devRef .tc main_v6) = dstVec (m ((c : Thread nD τ).loc main_arg6)) := by
  show StableHlo.after hostOps0_2 (StableHlo.after hostOps0_1 (StableHlo.after hostOps0 (W0 m ρ c))) (Proc.devRef .tc main_v6) = _
  after_results
  rfl

/-- The call of the outlined select, over any contents: the chosen value where the mask is set, the splat of the
    third operand elsewhere. -/
theorem where_v14 (V : Valuation τ sig (Elt Ideal)) :
    StableHlo.after hostOps0_1 V (Proc.devRef .tc main_v14)
      = select (V (Proc.devRef .tc main_v12)) (V (Proc.devRef .tc main_v13))
          (broadcastInDim S50000 ![] bcast_S_S50000 (V (Proc.devRef .tc main_cst_2))) := by
  after_results
  simp only [Cert.LibTypedRef.ofBuf_toBuf, Cert.LibTypedRef.toBuf_ofBuf]
  rfl

/-- The factors laid out as a column, over any contents. -/
theorem col_v15 (V : Valuation τ sig (Elt Ideal)) :
    StableHlo.after hostOps0_2 V (Proc.devRef .tc main_v15)
      = broadcastInDim S50000x1 ![0] bcast_S50000_S50000x1_0 (V (Proc.devRef .tc main_v14)) := by
  after_results

/-- The mask of positive degrees, over any contents. -/
theorem deg_v12 (V : Valuation τ sig (Elt Ideal)) :
    StableHlo.after hostOps0 V (Proc.devRef .tc main_v12)
      = cmpf .ogt (degVec (V (Proc.devRef .tc main_arg6))) (broadcastInDim S50000 ![] bcast_S_S50000 (constant (F := Ideal) S_ .f32 0x00000000#32)) := by
  after_results
  rfl

/-- The reciprocal square roots of the degrees, over any contents. -/
theorem deg_v13 (V : Valuation τ sig (Elt Ideal)) :
    StableHlo.after hostOps0 V (Proc.devRef .tc main_v13) = Host.rsqrt (F := Ideal) (degVec (V (Proc.devRef .tc main_arg6))) := by
  after_results
  rfl

/-- The zero word the outlined select falls back to. -/
theorem zero_cst2 (V : Valuation τ sig (Elt Ideal)) :
    StableHlo.after hostOps0 V (Proc.devRef .tc main_cst_2) = constant (F := Ideal) S_ .f32 0x00000000#32 := by
  after_results

theorem W3_v15 : W3 m ρ c (Proc.devRef .tc main_v15) = dinvCol (m ((c : Thread nD τ).loc main_arg6)) := by
  show StableHlo.after hostOps0_2 (W2 m ρ c) (Proc.devRef .tc main_v15) = _
  rw [col_v15]
  show broadcastInDim S50000x1 ![0] bcast_S50000_S50000x1_0 (StableHlo.after hostOps0_1 (W1 m ρ c) (Proc.devRef .tc main_v14)) = _
  rw [where_v14]
  show broadcastInDim S50000x1 ![0] bcast_S50000_S50000x1_0 (select (StableHlo.after hostOps0 (W0 m ρ c) (Proc.devRef .tc main_v12))
    (StableHlo.after hostOps0 (W0 m ρ c) (Proc.devRef .tc main_v13))
    (broadcastInDim S50000 ![] bcast_S_S50000 (StableHlo.after hostOps0 (W0 m ρ c) (Proc.devRef .tc main_cst_2)))) = _
  rw [deg_v12, deg_v13, zero_cst2]
  rfl

theorem W3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results

theorem W3_arg1 : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  after_results

theorem W3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results

theorem W3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results

theorem W3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results

theorem W3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results

/-! ## Region 1's entry -/

theorem W5_v27 : W5 m ρ c (Proc.devRef .tc main_v27)
    = agg (W4 m ρ c (Proc.devRef .tc main_v16)) (W4 m ρ c (Proc.devRef .tc main_v5)) (W4 m ρ c (Proc.devRef .tc main_v6)) := by
  show StableHlo.after hostOps1 (W4 m ρ c) (Proc.devRef .tc main_v27) = _
  after_results
  rfl

theorem W5_keep (b : Ref sig .tc) (hb : b = main_v15 ∨ b = main_arg0 ∨ b = main_arg2 ∨ b = main_arg3 ∨ b = main_arg4 ∨ b = main_arg5) :
    W5 m ρ c (Proc.devRef .tc b) = W4 m ρ c (Proc.devRef .tc b) := by
  show StableHlo.after hostOps1 (W4 m ρ c) (Proc.devRef .tc b) = _
  rcases hb with rfl | rfl | rfl | rfl | rfl | rfl <;> (after_results; try rfl)

end Cert.KernelIdeal.KHost
end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.LibUnitAxes.lean ====
/-
  Unit axes added, dropped and spread, read at an index given by its coordinates.
  A cast that adds or drops an axis of extent 1 keeps every entry where it was, and a broadcast
  along an axis of extent 1 repeats the operand along that axis: at an index the result is the
  operand at the index with the unit coordinate put at 0 (or dropped). Stated for any extents over
  the literal-rank index constructors `ix1`, `ix2`, `ix3`: a vector [a] as a column [a, 1] and back,
  a column [a, 1] spread to [a, b], a matrix [a, b] as [a, b, 1] and as [a, 1, b], an array
  [a, 1, c] spread to [a, b, c], an array [1, b, c] spread to [a, b, c].
-/
import Idealize.ShloMosaic.Lib.Pipeline.Value
import Idealize.ShloMosaic.Lib.ValueIdx

noncomputable section

namespace Cert.LibUnitAxes

open Idealize.ShloMosaic Idealize.ShloMosaic.ValueIdx

variable {α : Type}

/-- A vector [a] cast to a column [a, 1] reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] cast to a vector [a] reads, at p, the column at (p, 0). -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A column [a, 1] spread to [a, b] reads, at (p, c), the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix [a, b] cast to [a, b, 1] reads, at (p, q, u), the matrix at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- A matrix [a, b] cast to [a, 1, b] reads, at (p, u, q), the matrix at (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An array [a, 1, c] spread to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- An array [1, b, c] spread to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

end Cert.LibUnitAxes

end
-- ==== Proof.KBody0.lean ====
/-
  The first kernel call's arithmetic on one block, entry by entry.

  A block is 2000 consecutive rows of the node features x, the whole projection matrix W, and the matching 2000 rows
  of the factor column d.  On the extended reals a change of float format is the identity and a matrix product into the
  zero splat is the exact sum over the contracted coordinate, so the entry of the stored block at row p and column q is

      (Σ_k x(p, k) · W(k, q)) · d(p, 0):

  the projected features of row p, scaled by that row's factor (the column is spread along the 288 output columns, so
  every column of row p sees the factor at (p, 0)).
-/
import proofs.«125442_j28183575396996_2_alg».proof.Proof.Gen.KernelIdeal.Skeleton
import proofs.«125442_j28183575396996_2_alg».proof.Proof.LibMatmulAt
import proofs.«125442_j28183575396996_2_alg».proof.Proof.LibUnitAxes
import Idealize.ShloMosaic.Lib.ValueIdx
import Idealize.ShloMosaic.Lib.Pipeline.Value

noncomputable section

namespace Cert.KernelIdeal.Reg

open Idealize.ShloMosaic Idealize.ShloMosaic.ValueIdx Cert.KernelIdeal Cert.KernelIdeal.Gen

/-- The stored block of the projection at row p and column q: row p of the feature block against column q of W,
    times the factor of row p. -/
theorem proj_block_apply (x0 : Vec Ideal S2000x96 .f32) (x1 : Vec Ideal S96x288 .f32) (x2 : Vec Ideal S2000x1 .f32)
    (p : Fin 2000) (q : Fin 288) :
    k0_pay1 x0 x1 x2 (ix2 p q) = (∑ k : Fin 96, x0 (ix2 p k) * x1 (ix2 k q)) * x2 (ix2 p (0 : Fin 1)) := by
  unfold k0_pay1
  -- the last change of format is the identity, and the product of the two factors is entrywise
  refine (truncf_apply (ψ := .bf16) _ bitsLt_bf16_f32 _).trans ?_
  refine (mulf_apply _ _ _).trans ?_
  refine congrArg₂ (· * ·) ?_ ?_
  · -- the matrix product into the zero splat is the sum over the contracted coordinate; the operands' changes of
    -- format are the identity
    refine (Cert.KernelIdeal.Hand.matmul_zero_plain_apply _ rfl none _ _ (ix2 p q)).trans ?_
    rfl
  · -- the factor column, cast to its own shape and spread along the columns, reads its entry of row p
    rw [shapeCast_self]
    exact Cert.LibUnitAxes.broadcastTo_a1_ab_apply _ _ p q

end Cert.KernelIdeal.Reg

end
-- ==== Proof.KReg0.lean ====
/-
  The first kernel call, from blocks to the whole array.

  The call runs over 25 grid points.  Point t reads rows 2000·t … 2000·t + 1999 of the node features x and of the factor
  column d, and the whole projection matrix W; it writes rows 2000·t … 2000·t + 1999 of the output.  Every output row
  depends only on the same row of x and d, so what point t writes is exactly block t of ONE function of the three arrays,

      regionProj x W d (r, q) = (Σ_k x(r, k) · W(k, q)) · d(r, 0),

  and since the 25 row blocks cover all 50000 rows (row r lies in the block of point r / 2000), the output array ends
  holding that function everywhere.
-/
import proofs.«125442_j28183575396996_2_alg».proof.Proof.Gen.KernelIdeal.Frame
import proofs.«125442_j28183575396996_2_alg».proof.Proof.KBody0
import proofs.«125442_j28183575396996_2_alg».proof.Proof.Spec
import Idealize.ShloMosaic.Lib.Pipeline.Value

noncomputable section

namespace Cert.KernelIdeal.Reg

open Idealize.ShloMosaic Idealize.ShloMosaic.TcCoe Idealize.SL.Sem Idealize.ShloMosaic.ValueIdx
open Idealize.ShloMosaic.Pipeline (Dat)
open Cert.Gcn Cert.KernelIdeal Cert.KernelIdeal.Gen

variable (V : (c : Dev nD) → (b : Ref sig .tc) → Buf (Elt Ideal) ((c : Thread nD τ).loc b))

/-- The origin of a matrix block, spelt as the body's loads and store spell it. -/
theorem proj_origin : (![0, 0] : Fin 2 → Nat) = fun _ => 0 := funext fun a => by fin_cases a <;> rfl

/-- Where each window's block sits at grid point t: the features, the factor column and the output move down one row
    block per point; the projection matrix is one block, read whole at every point. -/
theorem proj_index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature block of point t at (p, k) is the feature array at row 2000·t + p, column k. -/
theorem proj_feat_block (c : Dev nD) (t : Fin cfg0.N) (p : Fin 2000) (k : Fin 96) (i : S50000x96.Idx)
    (h0 : (i 0).val = t.val * 2000 + p.val) (h1 : (i 1).val = k.val) :
    (iblk0 (F := Ideal) V c 0 t : Vec Ideal S2000x96 .f32) (ix2 p k) = (V c main_arg0 : S50000x96.Idx → EReal) i := by
  obtain ⟨e0, e1, -⟩ := proj_index_maps t
  unfold iblk0
  rw [View.read_apply]
  show V c main_arg0 _ = V c main_arg0 _
  congr 1
  funext a
  apply Fin.ext
  -- a block's coordinate is block index × block size + the coordinate inside the block
  match a with
  | ⟨0, _⟩ => show win0_0.index t (0 : Fin 2) * 2000 + 1 * p.val = (i 0).val; rw [e0, h0]; omega
  | ⟨1, _⟩ => show win0_0.index t (1 : Fin 2) * 96 + 1 * k.val = (i 1).val; rw [e1, h1]; omega

/-- The projection matrix's block at any point is the matrix. -/
theorem proj_weight_block (c : Dev nD) (t : Fin cfg0.N) (k : Fin 96) (q : Fin 288) :
    (iblk0 (F := Ideal) V c 1 t : Vec Ideal S96x288 .f32) (ix2 k q) = (V c main_arg1 : S96x288.Idx → EReal) (ix2 k q) := by
  obtain ⟨-, -, e0, e1, -⟩ := proj_index_maps t
  unfold iblk0
  rw [View.read_apply]
  show V c main_arg1 _ = V c main_arg1 _
  congr 1
  funext a
  apply Fin.ext
  match a with
  | ⟨0, _⟩ => show win0_1.index t (0 : Fin 2) * 96 + 1 * k.val = k.val; rw [e0]; omega
  | ⟨1, _⟩ => show win0_1.index t (1 : Fin 2) * 288 + 1 * q.val = q.val; rw [e1]; omega

/-- The factor block of point t at (p, 0) is the factor column at row 2000·t + p. -/
theorem proj_factor_block (c : Dev nD) (t : Fin cfg0.N) (p : Fin 2000) (i : S50000x1.Idx)
    (h0 : (i 0).val = t.val * 2000 + p.val) :
    (iblk0 (F := Ideal) V c 2 t : Vec Ideal S2000x1 .f32) (ix2 p (0 : Fin 1)) = (V c main_v15 : S50000x1.Idx → EReal) i := by
  obtain ⟨-, -, -, -, e0, e1, -⟩ := proj_index_maps t
  have hi1 : (i 1).val < 1 := (i 1).isLt
  unfold iblk0
  rw [View.read_apply]
  show V c main_v15 _ = V c main_v15 _
  congr 1
  funext a
  apply Fin.ext
  match a with
  | ⟨0, _⟩ => show win0_2.index t (0 : Fin 2) * 2000 + 1 * p.val = (i 0).val; rw [e0, h0]; omega
  | ⟨1, _⟩ => show win0_2.index t (1 : Fin 2) * 1 + 1 * 0 = (i 1).val; rw [e1]; omega

/-- What the body computes at point t, at (p, q) of its block, is the whole-array function at row r = 2000·t + p:
    the block's arithmetic (the sum over the contracted coordinate, times the row's factor) with each block entry read
    where it sits in its array. -/
theorem proj_entry (c : Dev nD) (t : Fin cfg0.N) (p : Fin 2000) (q : Fin 288) (r : Fin 50000)
    (hr : r.val = t.val * 2000 + p.val) :
    k0_pay1 (iblk0 (F := Ideal) V c 0 t) (iblk0 V c 1 t) (iblk0 V c 2 t) (ix2 p q)
      = regionProj (V c main_arg0) (V c main_arg1) (V c main_v15) (ix2 r q) := by
  refine (proj_block_apply (iblk0 V c 0 t) (iblk0 V c 1 t) (iblk0 V c 2 t) p q).trans ?_
  unfold regionProj
  refine congrArg₂ (· * ·) (Finset.sum_congr rfl fun k _ => congrArg₂ (· * ·) ?_ ?_) ?_
  · exact proj_feat_block V c t p k (ix2 r k) hr rfl
  · exact proj_weight_block V c t k q
  · exact proj_factor_block V c t p (ix2 r (0 : Fin 1)) hr

/-- What point t writes back is block t of the whole-array function: the body loads its three blocks whole and stores
    one whole block, and the output block's entry (p, q) sits at row 2000·t + p, column q of the output array. -/
theorem proj_flushed_eq (c : Dev nD) (t : Fin cfg0.N) :
    (dat0 (F := Ideal) V c).flushed 3 t
      = ((cfg0.win 3).blk t).view.read (Elt Ideal) (regionProj (V c main_arg0) (V c main_arg1) (V c main_v15)) := by
  show (cfg0.win 3).cut (grid0.coords t) ((dat0 V c).after 3 t) = _
  rw [after0_3]
  unfold out0_3
  rw [View.canon_unit_zero proj_origin]
  simp only [View.ld_unit_zero (S := S2000x96) proj_origin, View.ld_unit_zero (S := S96x288) proj_origin,
    View.ld_unit_zero (S := S2000x1) proj_origin]
  obtain ⟨-, -, -, -, -, -, e0, e1⟩ := proj_index_maps t
  have ht : t.val < 25 := lt_of_lt_of_eq t.isLt N_0
  funext j
  obtain ⟨p, q, rfl⟩ : ∃ (p : Fin 2000) (q : Fin 288), j = ix2 p q := ⟨j 0, j 1, eq_ix2 j⟩
  have hp : p.val < 2000 := p.isLt
  refine (proj_entry V c t p q ⟨t.val * 2000 + p.val, by omega⟩ rfl).trans ?_
  show regionProj (V c main_arg0) (V c main_arg1) (V c main_v15) _
    = regionProj (V c main_arg0) (V c main_arg1) (V c main_v15) (((cfg0.win 3).blk t).view.emb (ix2 p q))
  congr 1
  funext a
  apply Fin.ext
  match a with
  | ⟨0, _⟩ => show t.val * 2000 + p.val = win0_3.index t (0 : Fin 2) * 2000 + 1 * p.val; rw [e0]; omega
  | ⟨1, _⟩ => show q.val = win0_3.index t (1 : Fin 2) * 288 + 1 * q.val; rw [e1]; omega

/-- An entry of the output array lies in point t's block iff each coordinate lies in the block's range on its axis. -/
theorem proj_mem_block (t : Fin cfg0.N) (i : S50000x288.Idx) :
    i ∈ ((cfg0.win 3).blk t).view.set ↔ ∀ a : Fin 2, win0_3.index t a * S2000x288.size a ≤ (i a).val
      ∧ (i a).val < win0_3.index t a * S2000x288.size a + S2000x288.size a := by
  show i ∈ ((View.whole main_v16).slice (win0_3.rect t)).set ↔ _
  rw [View.set_slice_whole, Rect.mem_set_unit]
  exact Iff.rfl

/-- Every entry of the output array is written: row r lies in the block of point r / 2000, and a block spans all 288
    columns. -/
theorem proj_cover (i : S50000x288.Idx) :
    ∃ t : Fin cfg0.N, (cfg0.win 3).flush t = true ∧ i ∈ ((cfg0.win 3).blk t).view.set := by
  have hi0 : (i 0).val < 50000 := (i 0).isLt
  have hi1 : (i 1).val < 288 := (i 1).isLt
  have hN : grid0.N = 25 := N_0
  have hlt : (i 0).val / 2000 < cfg0.N := by show _ < grid0.N; rw [hN]; omega
  obtain ⟨-, -, -, -, -, -, e0, e1⟩ := proj_index_maps ⟨(i 0).val / 2000, hlt⟩
  refine ⟨⟨(i 0).val / 2000, hlt⟩, flush0_3 _, ?_⟩
  rw [proj_mem_block]
  intro a
  match a with
  | ⟨0, _⟩ =>
    show win0_3.index ⟨(i 0).val / 2000, hlt⟩ (0 : Fin 2) * 2000 ≤ (i 0).val
      ∧ (i 0).val < win0_3.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_3.index ⟨(i 0).val / 2000, hlt⟩ (1 : Fin 2) * 288 ≤ (i 1).val
      ∧ (i 1).val < win0_3.index ⟨(i 0).val / 2000, hlt⟩ (1 : Fin 2) * 288 + 288
    rw [e1]; omega

/-- After all 25 write-backs the output array of the first call is the projected features, each row scaled by its
    factor, as one function of the arrays the call found. -/
theorem final0 (c : Dev nD) :
    (dat0 (F := Ideal) V c).arrAt 3 cfg0.N = regionProj (V c main_arg0) (V c main_arg1) (V c main_v15) :=
  (dat0 V c).arrAt_eq_of_cover 3 (regionProj (V c main_arg0) (V c main_arg1) (V c main_v15))
    (fun t _ => proj_flushed_eq V c t) proj_cover

end Cert.KernelIdeal.Reg

end
-- ==== Proof.LibRowBias.lean ====
/-
  A vector laid along every row of a matrix, read at an entry. A kernel spells it as the broadcast down the rows of the
  vector's one-row cast; a host program as two broadcasts, first to a one-row matrix along axis 1 and then down the rows.
  Either way the entry at row r and column k is the vector's entry k. Nothing here depends on a program or on the
  element type.
-/
import Idealize.ShloMosaic.Lib.Pipeline.Value
import Idealize.ShloMosaic.Lib.ValueIdx
import Idealize.ShloMosaic.Lib.KernelVsHost

namespace Cert.LibRowBias

open Idealize.ShloMosaic Idealize.ShloMosaic.ValueIdx

variable {α : Type}

/-- The kernel's spelling: the vector cast to one row, the row broadcast down m rows. -/
theorem rowCast_broadcast_apply {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (k : Fin n) :
    broadcastTo ⟨2, ![m, n]⟩ (shapeCast ⟨2, ![1, n]⟩ b h1) hb (ix2 p k) = b (ix1 k) := by
  have e1 := broadcastTo_apply (shapeCast ⟨2, ![1, n]⟩ b h1) hb (ix2 p k) (ix2 (0 : Fin 1) k) (by
    intro a
    match a with
    | ⟨0, _⟩ => rfl
    | ⟨1, _⟩ =>
      show k.val = if n = 1 then 0 else k.val
      split
      · have := k.isLt; omega
      · rfl)
  have e2 := shapeCast_apply b h1 (ix2 (0 : Fin 1) k) (ix1 k) (by
    rw [Shape.rowMajor_val_two, Shape.rowMajor_val_one]; show k.val = 0 * n + k.val; omega)
  exact e1.trans e2

/-- The host's spelling: the vector broadcast along axis 1 to one row, the row broadcast down m rows. -/
theorem row_broadcastInDim_apply {m n : Nat} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1]) (r : Fin m) (k : Fin n) :
    broadcastInDim ⟨2, ![m, n]⟩ ![0, 1] hd2 (broadcastInDim ⟨2, ![1, n]⟩ ![1] hd1 b) (ix2 r k) = b (ix1 k) := by
  refine (broadcastInDim_oneRow_apply hd2 _ r k).trans ?_
  refine broadcastInDim_apply ![1] hd1 b (ix2 (0 : Fin 1) k) (ix1 k) ?_
  intro a
  match a with
  | ⟨0, _⟩ =>
    show k.val = if n = 1 then 0 else k.val
    split
    · have := k.isLt; omega
    · rfl

end Cert.LibRowBias
-- ==== Proof.KBody1.lean ====
/-
  The second kernel call's arithmetic on one block, entry by entry.

  A block is 2000 consecutive rows of the summed messages fr, of the factor column d and of the node features x, with
  the two weight matrices W1, W2 and the two bias vectors b1, b2 whole.  On the extended reals a change of float format
  is the identity and a matrix product into the zero splat is the exact sum over the contracted coordinate, so the
  entry of the stored block at row p and column j is

      x(p, j) + ( Σ_k max( Σ_c (fr(p, c) · d(p, 0)) · W1(c, k) + b1(k), 0 ) · W2(k, j) + b2(j) ):

  the summed row scaled by its factor, through the hidden layer with its relu (the maximum with the zero word, which
  is kept as a word), through the output layer, plus the residual.  Each bias vector is laid along every row, and the
  factor column is spread along the 288 columns.
-/
import proofs.«125442_j28183575396996_2_alg».proof.Proof.Gen.KernelIdeal.Skeleton
import proofs.«125442_j28183575396996_2_alg».proof.Proof.LibMatmulAt
import proofs.«125442_j28183575396996_2_alg».proof.Proof.LibUnitAxes
import proofs.«125442_j28183575396996_2_alg».proof.Proof.LibRowBias
import proofs.«125442_j28183575396996_2_alg».proof.Proof.Spec
import Idealize.ShloMosaic.Lib.ValueIdx
import Idealize.ShloMosaic.Lib.Pipeline.Value

noncomputable section

namespace Cert.KernelIdeal.Reg

open Idealize.ShloMosaic Idealize.ShloMosaic.ValueIdx Cert.Gcn Cert.KernelIdeal Cert.KernelIdeal.Gen

/-- The stored block of the update at row p and column j. -/
theorem upd_block_apply (v0 : Vec Ideal S2000x288 .f32) (v2 : Vec Ideal S2000x1 .f32) (v7 : Vec Ideal S288x32 .f32)
    (v10 : Vec Ideal S32 .f32) (v17 : Vec Ideal S32x96 .f32) (v20 : Vec Ideal S96 .f32) (v24 : Vec Ideal S2000x96 .f32)
    (p : Fin 2000) (j : Fin 96) :
    k1_pay1 v0 v2 v7 v10 v17 v20 v24 (ix2 p j)
      = v24 (ix2 p j) + ((∑ k : Fin 32, max ((∑ c : Fin 288, (v0 (ix2 p c) * v2 (ix2 p (0 : Fin 1))) * v7 (ix2 c k))
          + v10 (ix1 k)) zeroW * v17 (ix2 k j)) + v20 (ix1 j)) := by
  unfold k1_pay1
  -- the residual, then the output layer's product plus its bias row
  refine (addf_apply _ _ _).trans ?_
  refine congrArg (v24 (ix2 p j) + ·) ?_
  refine (addf_apply _ _ _).trans ?_
  refine congrArg₂ (· + ·) ?_ ?_
  · -- the output layer: the sum over the 32 hidden units
    refine (Cert.KernelIdeal.Hand.matmul_zero_plain_apply _ rfl none _ _ (ix2 p j)).trans ?_
    refine Finset.sum_congr rfl fun k _ => ?_
    show _ * v17 (ix2 k j) = _ * v17 (ix2 k j)
    refine congrArg (· * v17 (ix2 k j)) ?_
    -- a hidden unit: the maximum of the hidden layer's entry with the zero word
    refine (truncf_apply (ψ := .bf16) _ bitsLt_bf16_f32 _).trans ?_
    refine (maximumf_apply _ _ _).trans ?_
    refine congrArg₂ max ?_ rfl
    refine (addf_apply _ _ _).trans ?_
    refine congrArg₂ (· + ·) ?_ ?_
    · -- the hidden layer: the sum over the 288 feature columns of the scaled row against W1
      refine (Cert.KernelIdeal.Hand.matmul_zero_plain_apply _ rfl none _ _ (ix2 p k)).trans ?_
      refine Finset.sum_congr rfl fun c _ => ?_
      show _ * v7 (ix2 c k) = _ * v7 (ix2 c k)
      refine congrArg (· * v7 (ix2 c k)) ?_
      refine (truncf_apply (ψ := .bf16) _ bitsLt_bf16_f32 _).trans ?_
      refine (mulf_apply _ _ _).trans ?_
      refine congrArg₂ (· * ·) ?_ ?_
      · rw [shapeCast_self]
      · -- the factor column, spread along the columns, reads its entry of row p
        rw [shapeCast_self]
        exact Cert.LibUnitAxes.broadcastTo_a1_ab_apply _ _ p c
    · exact Cert.LibRowBias.rowCast_broadcast_apply _ _ _ p k
  · exact Cert.LibRowBias.rowCast_broadcast_apply _ _ _ p j

end Cert.KernelIdeal.Reg

end
-- ==== Proof.KReg1.lean ====
/-
  The second kernel call, from blocks to the whole array.

  The call runs over 25 grid points.  Point t reads rows 2000·t … 2000·t + 1999 of the summed messages fr, of the factor
  column d and of the node features x, and the two weight matrices and two bias vectors whole; it writes rows
  2000·t … 2000·t + 1999 of the output.  Every output row depends only on the same row of fr, d and x, so what point t
  writes is exactly block t of ONE function of the seven arrays,

      regionUpd fr d x W1 b1 W2 b2 (r, j)
        = x(r, j) + ( Σ_k max( Σ_c (fr(r, c) · d(r, 0)) · W1(c, k) + b1(k), 0 ) · W2(k, j) + b2(j) ),

  and since the 25 row blocks cover all 50000 rows (row r lies in the block of point r / 2000), the output array ends
  holding that function everywhere.
-/
import proofs.«125442_j28183575396996_2_alg».proof.Proof.Gen.KernelIdeal.Frame
import proofs.«125442_j28183575396996_2_alg».proof.Proof.KBody1
import proofs.«125442_j28183575396996_2_alg».proof.Proof.Spec
import Idealize.ShloMosaic.Lib.Pipeline.Value

noncomputable section

namespace Cert.KernelIdeal.Reg

open Idealize.ShloMosaic Idealize.ShloMosaic.TcCoe Idealize.SL.Sem Idealize.ShloMosaic.ValueIdx
open Idealize.ShloMosaic.Pipeline (Dat)
open Cert.Gcn Cert.KernelIdeal Cert.KernelIdeal.Gen

variable (V : (c : Dev nD) → (b : Ref sig .tc) → Buf (Elt Ideal) ((c : Thread nD τ).loc b))

/-- The origin of a matrix block, spelt as the body's loads and store spell it. -/
theorem upd_origin2 : (![0, 0] : Fin 2 → Nat) = fun _ => 0 := funext fun a => by fin_cases a <;> rfl
/-- The origin of a vector block. -/
theorem upd_origin1 : (![0] : Fin 1 → Nat) = fun _ => 0 := funext fun a => by fin_cases a; rfl

/-- Where each window's block sits at grid point t: the summed rows, the factor column, the features and the output
    move down one row block per point; the weight matrices and bias vectors are one block each, read whole at every
    point. -/
theorem upd_index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- The summed-rows block of point t at (p, k) is the summed-rows array at row 2000·t + p, column k. -/
theorem upd_sum_block (c : Dev nD) (t : Fin cfg1.N) (p : Fin 2000) (k : Fin 288) (i : S50000x288.Idx)
    (h0 : (i 0).val = t.val * 2000 + p.val) (h1 : (i 1).val = k.val) :
    (iblk1 (F := Ideal) V c 0 t : Vec Ideal S2000x288 .f32) (ix2 p k) = (V c main_v27 : S50000x288.Idx → EReal) i := by
  obtain ⟨e0, e1, -⟩ := upd_index_maps t
  unfold iblk1
  rw [View.read_apply]
  show V c main_v27 _ = V c main_v27 _
  congr 1
  funext a
  apply Fin.ext
  -- a block's coordinate is block index × block size + the coordinate inside the block
  match a with
  | ⟨0, _⟩ => show win1_0.index t (0 : Fin 2) * 2000 + 1 * p.val = (i 0).val; rw [e0, h0]; omega
  | ⟨1, _⟩ => show win1_0.index t (1 : Fin 2) * 288 + 1 * k.val = (i 1).val; rw [e1, h1]; omega

/-- The factor block of point t at (p, 0) is the factor column at row 2000·t + p. -/
theorem upd_factor_block (c : Dev nD) (t : Fin cfg1.N) (p : Fin 2000) (i : S50000x1.Idx)
    (h0 : (i 0).val = t.val * 2000 + p.val) :
    (iblk1 (F := Ideal) V c 1 t : Vec Ideal S2000x1 .f32) (ix2 p (0 : Fin 1)) = (V c main_v15 : S50000x1.Idx → EReal) i := by
  obtain ⟨-, -, e0, e1, -⟩ := upd_index_maps t
  have hi1 : (i 1).val < 1 := (i 1).isLt
  unfold iblk1
  rw [View.read_apply]
  show V c main_v15 _ = V c main_v15 _
  congr 1
  funext a
  apply Fin.ext
  match a with
  | ⟨0, _⟩ => show win1_1.index t (0 : Fin 2) * 2000 + 1 * p.val = (i 0).val; rw [e0, h0]; omega
  | ⟨1, _⟩ => show win1_1.index t (1 : Fin 2) * 1 + 1 * 0 = (i 1).val; rw [e1]; omega

/-- The feature block of point t at (p, k) is the feature array at row 2000·t + p, column k. -/
theorem upd_feat_block (c : Dev nD) (t : Fin cfg1.N) (p : Fin 2000) (k : Fin 96) (i : S50000x96.Idx)
    (h0 : (i 0).val = t.val * 2000 + p.val) (h1 : (i 1).val = k.val) :
    (iblk1 (F := Ideal) V c 2 t : Vec Ideal S2000x96 .f32) (ix2 p k) = (V c main_arg0 : S50000x96.Idx → EReal) i := by
  obtain ⟨-, -, -, -, e0, e1, -⟩ := upd_index_maps t
  unfold iblk1
  rw [View.read_apply]
  show V c main_arg0 _ = V c main_arg0 _
  congr 1
  funext a
  apply Fin.ext
  match a with
  | ⟨0, _⟩ => show win1_2.index t (0 : Fin 2) * 2000 + 1 * p.val = (i 0).val; rw [e0, h0]; omega
  | ⟨1, _⟩ => show win1_2.index t (1 : Fin 2) * 96 + 1 * k.val = (i 1).val; rw [e1, h1]; omega

/-- The hidden layer's weight block at any point is the matrix. -/
theorem upd_w1_block (c : Dev nD) (t : Fin cfg1.N) (p : Fin 288) (k : Fin 32) :
    (iblk1 (F := Ideal) V c 3 t : Vec Ideal S288x32 .f32) (ix2 p k) = (V c main_arg2 : S288x32.Idx → EReal) (ix2 p k) := by
  obtain ⟨-, -, -, -, -, -, e0, e1, -⟩ := upd_index_maps t
  unfold iblk1
  rw [View.read_apply]
  show V c main_arg2 _ = V c main_arg2 _
  congr 1
  funext a
  apply Fin.ext
  match a with
  | ⟨0, _⟩ => show win1_3.index t (0 : Fin 2) * 288 + 1 * p.val = p.val; rw [e0]; omega
  | ⟨1, _⟩ => show win1_3.index t (1 : Fin 2) * 32 + 1 * k.val = k.val; rw [e1]; omega

/-- The hidden layer's bias block at any point is the vector. -/
theorem upd_b1_block (c : Dev nD) (t : Fin cfg1.N) (k : Fin 32) :
    (iblk1 (F := Ideal) V c 4 t : Vec Ideal S32 .f32) (ix1 k) = (V c main_arg3 : S32.Idx → EReal) (ix1 k) := by
  obtain ⟨-, -, -, -, -, -, -, -, e0, -⟩ := upd_index_maps t
  unfold iblk1
  rw [View.read_apply]
  show V c main_arg3 _ = V c main_arg3 _
  congr 1
  funext a
  apply Fin.ext
  match a with
  | ⟨0, _⟩ => show win1_4.index t (0 : Fin 1) * 32 + 1 * k.val = k.val; rw [e0]; omega

/-- The output layer's weight block at any point is the matrix. -/
theorem upd_w2_block (c : Dev nD) (t : Fin cfg1.N) (p : Fin 32) (k : Fin 96) :
    (iblk1 (F := Ideal) V c 5 t : Vec Ideal S32x96 .f32) (ix2 p k) = (V c main_arg4 : S32x96.Idx → EReal) (ix2 p k) := by
  obtain ⟨-, -, -, -, -, -, -, -, -, e0, e1, -⟩ := upd_index_maps t
  unfold iblk1
  rw [View.read_apply]
  show V c main_arg4 _ = V c main_arg4 _
  congr 1
  funext a
  apply Fin.ext
  match a with
  | ⟨0, _⟩ => show win1_5.index t (0 : Fin 2) * 32 + 1 * p.val = p.val; rw [e0]; omega
  | ⟨1, _⟩ => show win1_5.index t (1 : Fin 2) * 96 + 1 * k.val = k.val; rw [e1]; omega

/-- The output layer's bias block at any point is the vector. -/
theorem upd_b2_block (c : Dev nD) (t : Fin cfg1.N) (k : Fin 96) :
    (iblk1 (F := Ideal) V c 6 t : Vec Ideal S96 .f32) (ix1 k) = (V c main_arg5 : S96.Idx → EReal) (ix1 k) := by
  obtain ⟨-, -, -, -, -, -, -, -, -, -, -, e0, -⟩ := upd_index_maps t
  unfold iblk1
  rw [View.read_apply]
  show V c main_arg5 _ = V c main_arg5 _
  congr 1
  funext a
  apply Fin.ext
  match a with
  | ⟨0, _⟩ => show win1_6.index t (0 : Fin 1) * 96 + 1 * k.val = k.val; rw [e0]; omega

/-- What the body computes at point t, at (p, j) of its block, is the whole-array function at row r = 2000·t + p: the
    block's arithmetic with each block entry read where it sits in its array. -/
theorem upd_entry (c : Dev nD) (t : Fin cfg1.N) (p : Fin 2000) (j : Fin 96) (r : Fin 50000)
    (hr : r.val = t.val * 2000 + p.val) :
    k1_pay1 (iblk1 (F := Ideal) V c 0 t) (iblk1 V c 1 t) (iblk1 V c 3 t) (iblk1 V c 4 t) (iblk1 V c 5 t) (iblk1 V c 6 t)
        (iblk1 V c 2 t) (ix2 p j)
      = regionUpd (V c main_v27) (V c main_v15) (V c main_arg0) (V c main_arg2) (V c main_arg3) (V c main_arg4)
          (V c main_arg5) (ix2 r j) := by
  refine (upd_block_apply (iblk1 V c 0 t) (iblk1 V c 1 t) (iblk1 V c 3 t) (iblk1 V c 4 t) (iblk1 V c 5 t) (iblk1 V c 6 t)
    (iblk1 V c 2 t) p j).trans ?_
  unfold regionUpd Cert.Gcn.out Cert.Gcn.hidden
  refine congrArg₂ (· + ·) (upd_feat_block V c t p j (ix2 r j) hr rfl) ?_
  refine congrArg₂ (· + ·) (Finset.sum_congr rfl fun k _ => ?_) (upd_b2_block V c t j)
  refine congrArg₂ (· * ·) ?_ (upd_w2_block V c t k j)
  refine congrArg₂ max ?_ rfl
  refine congrArg₂ (· + ·) (Finset.sum_congr rfl fun c' _ => ?_) (upd_b1_block V c t k)
  refine congrArg₂ (· * ·) (congrArg₂ (· * ·) ?_ ?_) (upd_w1_block V c t c' k)
  · exact upd_sum_block V c t p c' (ix2 r c') hr rfl
  · exact upd_factor_block V c t p (ix2 r (0 : Fin 1)) hr

/-- What point t writes back is block t of the whole-array function: the body loads its seven blocks whole and stores
    one whole block, and the output block's entry (p, j) sits at row 2000·t + p, column j of the output array. -/
theorem upd_flushed_eq (c : Dev nD) (t : Fin cfg1.N) :
    (dat1 (F := Ideal) V c).flushed 7 t
      = ((cfg1.win 7).blk t).view.read (Elt Ideal) (regionUpd (V c main_v27) (V c main_v15) (V c main_arg0)
          (V c main_arg2) (V c main_arg3) (V c main_arg4) (V c main_arg5)) := by
  show (cfg1.win 7).cut (grid1.coords t) ((dat1 V c).after 7 t) = _
  rw [after1_7]
  unfold out1_7
  rw [View.canon_unit_zero upd_origin2]
  simp only [View.ld_unit_zero (S := S2000x288) upd_origin2, View.ld_unit_zero (S := S2000x1) upd_origin2,
    View.ld_unit_zero (S := S2000x96) upd_origin2, View.ld_unit_zero (S := S288x32) upd_origin2,
    View.ld_unit_zero (S := S32x96) upd_origin2, View.ld_unit_zero (S := S32) upd_origin1,
    View.ld_unit_zero (S := S96) upd_origin1]
  obtain ⟨-, -, -, -, -, -, -, -, -, -, -, -, e0, e1⟩ := upd_index_maps t
  have ht : t.val < 25 := lt_of_lt_of_eq t.isLt N_1
  funext y
  obtain ⟨p, j, rfl⟩ : ∃ (p : Fin 2000) (j : Fin 96), y = ix2 p j := ⟨y 0, y 1, eq_ix2 y⟩
  have hp : p.val < 2000 := p.isLt
  refine (upd_entry V c t p j ⟨t.val * 2000 + p.val, by omega⟩ rfl).trans ?_
  show regionUpd (V c main_v27) (V c main_v15) (V c main_arg0) (V c main_arg2) (V c main_arg3) (V c main_arg4)
      (V c main_arg5) _
    = regionUpd (V c main_v27) (V c main_v15) (V c main_arg0) (V c main_arg2) (V c main_arg3) (V c main_arg4)
      (V c main_arg5) (((cfg1.win 7).blk t).view.emb (ix2 p j))
  congr 1
  funext a
  apply Fin.ext
  match a with
  | ⟨0, _⟩ => show t.val * 2000 + p.val = win1_7.index t (0 : Fin 2) * 2000 + 1 * p.val; rw [e0]; omega
  | ⟨1, _⟩ => show j.val = win1_7.index t (1 : Fin 2) * 96 + 1 * j.val; rw [e1]; omega

/-- An entry of the output array lies in point t's block iff each coordinate lies in the block's range on its axis. -/
theorem upd_mem_block (t : Fin cfg1.N) (i : S50000x96.Idx) :
    i ∈ ((cfg1.win 7).blk t).view.set ↔ ∀ a : Fin 2, win1_7.index t a * S2000x96.size a ≤ (i a).val
      ∧ (i a).val < win1_7.index t a * S2000x96.size a + S2000x96.size a := by
  show i ∈ ((View.whole main_v28).slice (win1_7.rect t)).set ↔ _
  rw [View.set_slice_whole, Rect.mem_set_unit]
  exact Iff.rfl

/-- Every entry of the output array is written: row r lies in the block of point r / 2000, and a block spans all 96
    columns. -/
theorem upd_cover (i : S50000x96.Idx) :
    ∃ t : Fin cfg1.N, (cfg1.win 7).flush t = true ∧ i ∈ ((cfg1.win 7).blk t).view.set := by
  have hi0 : (i 0).val < 50000 := (i 0).isLt
  have hi1 : (i 1).val < 96 := (i 1).isLt
  have hN : grid1.N = 25 := N_1
  have hlt : (i 0).val / 2000 < cfg1.N := by show _ < grid1.N; rw [hN]; omega
  obtain ⟨-, -, -, -, -, -, -, -, -, -, -, -, e0, e1⟩ := upd_index_maps ⟨(i 0).val / 2000, hlt⟩
  refine ⟨⟨(i 0).val / 2000, hlt⟩, flush1_7 _, ?_⟩
  rw [upd_mem_block]
  intro a
  match a with
  | ⟨0, _⟩ =>
    show win1_7.index ⟨(i 0).val / 2000, hlt⟩ (0 : Fin 2) * 2000 ≤ (i 0).val
      ∧ (i 0).val < win1_7.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_7.index ⟨(i 0).val / 2000, hlt⟩ (1 : Fin 2) * 96 ≤ (i 1).val
      ∧ (i 1).val < win1_7.index ⟨(i 0).val / 2000, hlt⟩ (1 : Fin 2) * 96 + 96
    rw [e1]; omega

/-- After all 25 write-backs the output array of the second call is the update of the summed rows scaled by the factor
    column, with the residual, as one function of the arrays the call found. -/
theorem final1 (c : Dev nD) :
    (dat1 (F := Ideal) V c).arrAt 7 cfg1.N
      = regionUpd (V c main_v27) (V c main_v15) (V c main_arg0) (V c main_arg2) (V c main_arg3) (V c main_arg4)
          (V c main_arg5) :=
  (dat1 V c).arrAt_eq_of_cover 7 (regionUpd (V c main_v27) (V c main_v15) (V c main_arg0) (V c main_arg2)
      (V c main_arg3) (V c main_arg4) (V c main_arg5))
    (fun t _ => upd_flushed_eq V c t) upd_cover

end Cert.KernelIdeal.Reg

end
-- ==== Proof.LibColumn.lean ====
/-
  A vector laid out as a column, read at an entry. A host program turns a vector of a entries into an a × 1 matrix by a
  broadcast that sends the vector's axis to the matrix's first axis; the entry at (p, u) is the vector's entry p.
  Stated for any extent and any element type; nothing here depends on a program.
-/
import Idealize.ShloMosaic.Lib.Pipeline.Value
import Idealize.ShloMosaic.Lib.ValueIdx

namespace Cert.LibColumn

open Idealize.ShloMosaic Idealize.ShloMosaic.ValueIdx

variable {α : Type}

/-- A vector [a] broadcast along axis 0 into a column [a, 1] reads, at (p, u), the vector at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) ?_
  intro ax
  match ax with
  | ⟨0, _⟩ =>
    show p.val = if a = 1 then 0 else p.val
    split
    · have := p.isLt; omega
    · rfl

end Cert.LibColumn
-- ==== Proof.KValue.lean ====
/-
  The kernel program's result, entry by entry, is the node-wise normalised graph convolution followed by the update.

  The second launch leaves the update of the summed rows scaled by the factor column; the summed rows are the first
  launch's rows gathered at the wrapped sources and summed by destination; the first launch's rows are the projected
  features scaled by the factor column; the factor column holds the factors.  Read at (n, c) the summed rows are the zero
  word plus, over the edges landing on n, the projected entry of the edge's source row times that row's factor; times
  the factor of n this is the node-wise form of the features, and the update of equal features is equal.
-/
import proofs.«125442_j28183575396996_2_alg».proof.Proof.KRun
import proofs.«125442_j28183575396996_2_alg».proof.Proof.KHost
import proofs.«125442_j28183575396996_2_alg».proof.Proof.KReg0
import proofs.«125442_j28183575396996_2_alg».proof.Proof.KReg1
import proofs.«125442_j28183575396996_2_alg».proof.Proof.Spec
import proofs.«125442_j28183575396996_2_alg».proof.Proof.LibGatherRows
import proofs.«125442_j28183575396996_2_alg».proof.Proof.LibSegmentSum
import proofs.«125442_j28183575396996_2_alg».proof.Proof.LibColumn
import Idealize.ShloMosaic.Lib.IdealHost
import Idealize.ShloMosaic.Lib.Pipeline.Value

set_option maxRecDepth 16384

noncomputable section

namespace Cert.KernelIdeal.KValue

open Idealize.ShloMosaic Idealize.ShloMosaic.TcCoe Idealize.SL.Sem Idealize.ShloMosaic.StableHlo Idealize.ShloMosaic.ValueIdx
open Cert.Gcn Cert.SegmentSum Cert.KernelIdeal Cert.KernelIdeal.Gen Cert.KernelIdeal.KHost Cert.KernelIdeal.Hand

/-- The source words as the gather reads them: wrapped, as a column. -/
def srcWords (x6 : Arg6) : EdgeWords := colOf (wrapWords (srcVec x6))
/-- The destination words as the segment sums read them: as a column. -/
def dstWords (x6 : Arg6) : EdgeWords := colOf (dstVec x6)

/-- The factor column reads, at (r, 0), the factor of node r. -/
theorem dinvCol_apply (x6 : Arg6) (r : Fin 50000) : dinvCol x6 (ix2 r (0 : Fin 1)) = dinv x6 (ix1 r) := by
  unfold dinvCol
  exact Cert.LibColumn.broadcastInDim_a_a1_apply (dinv x6) bcast_S50000_S50000x1_0 r 0

/-- The first launch's whole-array function at (r, c): the projected entry times the column's entry of row r. -/
theorem regionProj_apply (x : Mat 50000 96) (W : Mat 96 288) (d2 : Mat 50000 1) (r : Fin 50000) (c : Fin 288) :
    regionProj x W d2 (ix2 r c) = dense x W r c * d2 (ix2 r (0 : Fin 1)) := rfl

/-- Rows gathered at a column of source words and summed by a column of destination words, over any arrays: at
    (n, k) the operand's entry plus the gathered rows' entries over the edges landing on n. -/
theorem segsum_gather_apply (z : FVec Ideal S50000x288 .f32) (hs : FVec Ideal S50000x288 .bf16) (srcW dstW : IVec S850000x1 32)
    (n : Fin 50000) (k : Fin 288) :
    Host.scatterAdd (F := Ideal) scatter_S50000x288_S850000x1_S850000x288_1_0_0_1 z dstW
        (extf .f32 (Host.gather gather_S50000x288_S850000x1_S850000x288_1_0_n_n_0_1_1288 hs srcW) bitsLt_bf16_f32) (ix2 n k)
      = z (ix2 n k) + ∑ e ∈ edgesAt dstW n, hs (ix2 (srcRow srcW e) k) := by
  have h : Host.scatterAdd (F := Ideal) scatter_S50000x288_S850000x1_S850000x288_1_0_0_1 z dstW
        (extf .f32 (Host.gather gather_S50000x288_S850000x1_S850000x288_1_0_n_n_0_1_1288 hs srcW) bitsLt_bf16_f32)
      = Ideal.hostScatterAdd scatter_S50000x288_S850000x1_S850000x288_1_0_0_1 z dstW
        (extf .f32 (Host.gather gather_S50000x288_S850000x1_S850000x288_1_0_n_n_0_1_1288 hs srcW) bitsLt_bf16_f32) := rfl
  rw [h, scatterAdd_rows_apply scatter_S50000x288_S850000x1_S850000x288_1_0_0_1 rfl rfl rfl rfl]
  refine congrArg (fun s => z (ix2 n k) + s) (Finset.sum_congr rfl fun e _ => ?_)
  exact gather_rows_apply nodes_pos gather_S50000x288_S850000x1_S850000x288_1_0_n_n_0_1_1288_wf hs srcW e k

/-- The gather-and-sum of the host at (n, k): the zero word plus the gathered rows' entries over the edges landing on n. -/
theorem agg_apply (hs : FVec Ideal S50000x288 .bf16) (src dst : Words) (n : Fin 50000) (k : Fin 288) :
    agg hs src dst (ix2 n k) = zeroW + ∑ e ∈ edgesAt (colOf dst) n, hs (ix2 (srcRow (colOf (wrapWords src)) e) k) := by
  unfold agg
  rw [segsum_gather_apply]
  refine congrArg (fun s => s + _) ?_
  exact broadcastInDim_scalar_apply bcast_S_S50000x288 _ _

/-- The composed whole-array term of the program is the node-wise form. -/
theorem upd_eq (x0 : Mat 50000 96) (x1 : Mat 96 288) (x2 : Mat 288 32) (x3 : Vc 32) (x4 : Mat 32 96) (x5 : Vc 96) (x6 : Arg6) :
    regionUpd (agg (regionProj x0 x1 (dinvCol x6)) (srcVec x6) (dstVec x6)) (dinvCol x6) x0 x2 x3 x4 x5
      = fun i => out (featNode x0 x1 (dinv x6) (srcWords x6) (dstWords x6)) x0 x2 x3 x4 x5 (i 0) (i 1) := by
  unfold regionUpd
  funext i
  refine out_congr _ _ (fun n c => ?_) x0 x2 x3 x4 x5 (i 0) (i 1)
  rw [agg_apply, dinvCol_apply]
  unfold featNode srcWords dstWords
  refine congrArg (fun s => (zeroW + s) * dinv x6 (ix1 n)) (Finset.sum_congr rfl fun e _ => ?_)
  rw [regionProj_apply, dinvCol_apply]
  rfl

variable (m : (ℓ : Loc nD τ sig) → Buf (Elt Ideal) ℓ) (ρ : Dev nD → PrngReg) (c : Dev nD)

/-- The first launch's output array as the second stretch of host operations finds it. -/
theorem W4_v16 : W4 m ρ c (Proc.devRef .tc main_v16)
    = regionProj (m ((c : Thread nD τ).loc main_arg0)) (m ((c : Thread nD τ).loc main_arg1)) (dinvCol (m ((c : Thread nD τ).loc main_arg6))) := by
  refine ((W4_arr m ρ c 3).trans (Cert.KernelIdeal.Reg.final0 (V3 m ρ) c)).trans ?_
  show regionProj (W3 m ρ c (Proc.devRef .tc main_arg0)) (W3 m ρ c (Proc.devRef .tc main_arg1)) (W3 m ρ c (Proc.devRef .tc main_v15)) = _
  rw [W3_arg0, W3_arg1, W3_v15]

/-- The result buffer at the last boundary: the node-wise form of the arguments. -/
theorem result_eq : W6 m ρ c (Proc.devRef .tc main_v28)
    = fun i => out (featNode (m ((c : Thread nD τ).loc main_arg0)) (m ((c : Thread nD τ).loc main_arg1))
        (dinv (m ((c : Thread nD τ).loc main_arg6))) (srcWords (m ((c : Thread nD τ).loc main_arg6))) (dstWords (m ((c : Thread nD τ).loc main_arg6))))
        (m ((c : Thread nD τ).loc main_arg0)) (m ((c : Thread nD τ).loc main_arg2)) (m ((c : Thread nD τ).loc main_arg3))
        (m ((c : Thread nD τ).loc main_arg4)) (m ((c : Thread nD τ).loc main_arg5)) (i 0) (i 1) := by
  refine ((W6_arr m ρ c 7).trans (Cert.KernelIdeal.Reg.final1 (V5 m ρ) c)).trans ?_
  show regionUpd (W5 m ρ c (Proc.devRef .tc main_v27)) (W5 m ρ c (Proc.devRef .tc main_v15)) (W5 m ρ c (Proc.devRef .tc main_arg0))
    (W5 m ρ c (Proc.devRef .tc main_arg2)) (W5 m ρ c (Proc.devRef .tc main_arg3)) (W5 m ρ c (Proc.devRef .tc main_arg4))
    (W5 m ρ c (Proc.devRef .tc main_arg5)) = _
  rw [W5_v27, W5_keep m ρ c main_v15 (Or.inl rfl), W5_keep m ρ c main_arg0 (Or.inr (Or.inl rfl)),
    W5_keep m ρ c main_arg2 (Or.inr (Or.inr (Or.inl rfl))), W5_keep m ρ c main_arg3 (Or.inr (Or.inr (Or.inr (Or.inl rfl)))),
    W5_keep m ρ c main_arg4 (Or.inr (Or.inr (Or.inr (Or.inr (Or.inl rfl))))), W5_keep m ρ c main_arg5 (Or.inr (Or.inr (Or.inr (Or.inr (Or.inr rfl))))),
    W4_v16, W4_of_ne m ρ c main_v5 (by decide), W4_of_ne m ρ c main_v6 (by decide),     W4_of_ne m ρ c main_arg2 (by decide), W4_of_ne m ρ c main_arg3 (by decide), W4_of_ne m ρ c main_arg4 (by decide),
    W4_of_ne m ρ c main_arg5 (by decide),
    show W4 m ρ c (Proc.devRef .tc main_arg0) = W3 m ρ c (Proc.devRef .tc main_arg0) from
      (W4_arr m ρ c 0).trans (((dat0 (V3 m ρ) c).arrAt_in 0 rfl _).trans (A_eq0 (V3 m ρ) c 0)),
    show W4 m ρ c (Proc.devRef .tc main_v15) = W3 m ρ c (Proc.devRef .tc main_v15) from
      (W4_arr m ρ c 2).trans (((dat0 (V3 m ρ) c).arrAt_in 2 rfl _).trans (A_eq0 (V3 m ρ) c 2)),
    W3_v5, W3_v6, W3_v15, W3_arg0, W3_arg2, W3_arg3, W3_arg4, W3_arg5]
  exact upd_eq _ _ _ _ _ _ _

/-- Every weakly fair execution of the kernel program terminates, nothing faulting, with the result buffer at the
    node-wise form of the arguments and the arguments as launched. -/
theorem run : θ_run defs (onTc (τ := τ) (main (F := Ideal))) ⟨m, fun _ => 0, ρ⟩ (fun r => ∀ c : Dev nD,
      r.2.mem ((c.tc : Thread nD τ).loc main_v28)
        = (fun i => out (featNode (m ((c.tc : Thread nD τ).loc main_arg0)) (m ((c.tc : Thread nD τ).loc main_arg1))
            (dinv (m ((c.tc : Thread nD τ).loc main_arg6))) (srcWords (m ((c.tc : Thread nD τ).loc main_arg6))) (dstWords (m ((c.tc : Thread nD τ).loc main_arg6))))
            (m ((c.tc : Thread nD τ).loc main_arg0)) (m ((c.tc : Thread nD τ).loc main_arg2)) (m ((c.tc : Thread nD τ).loc main_arg3))
            (m ((c.tc : Thread nD τ).loc main_arg4)) (m ((c.tc : Thread nD τ).loc main_arg5)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (result_eq m ρ c), (h c).2⟩) (Cert.KernelIdeal.KRun.run (F := Ideal) m ρ)

end Cert.KernelIdeal.KValue
end
-- ==== Proof.LibRsqrtPow.lean ====
/-
  The reciprocal square root as a power.

  For an extended real at or above one, the reciprocal of its square root is the number raised to the power −1/2: on the
  reals both are (√x)⁻¹, and at +∞ both are 0. (The two functions differ at zero — +∞ against 0 — and below zero, which a
  value clipped from below at one never reaches; so no finiteness hypothesis is needed.) This is the law by which a
  program computing rsqrt (max 1 d) meets one computing (max 1 d) ^ (−0.5), the bound written as the float word of 1.0
  and the exponent as the float word of −0.5, whichever way round the maximum is written. Nothing here depends on a
  program.
-/
import Idealize.ShloMosaic.PureOps.Ideal
import Idealize.ShloMosaic.PureOps.Ideal.Laws
import Idealize.ShloMosaic.Lib.IdealHost

noncomputable section

namespace Cert.LibRsqrtPow

open Idealize.ShloMosaic

/-- The single-precision float word of −0.5 is the real number −1/2. -/
theorem ofBits_neg_half_f32 : Ideal.ofBits .f32 0xBF000000#32 = ((-(1 / 2) : ℝ) : EReal) := by
  simp [Ideal.ofBits, Ideal.ieee, -EReal.coe_mul]; norm_num

/-- At or above one, the reciprocal square root is the power −1/2. -/
theorem rsqrt_eq_pow_of_one_le (x : EReal) (hx : 1 ≤ x) :
    Ideal.rsqrt x = Ideal.pow x (Ideal.ofBits .f32 0xBF000000#32) := by
  rw [ofBits_neg_half_f32]
  induction x using EReal.rec with
  | bot => exact absurd (le_bot_iff.mp hx) (by rw [← EReal.coe_one]; exact EReal.coe_ne_bot 1)
  | top =>
    have h1 : ¬ (0 : EReal) < ((-(1 / 2) : ℝ) : EReal) := by
      rw [not_lt]; exact_mod_cast (by norm_num : (-(1 / 2) : ℝ) ≤ 0)
    have h2 : ((-(1 / 2) : ℝ) : EReal) ≠ 0 := by
      intro h; have : (-(1 / 2) : ℝ) = 0 := by exact_mod_cast h
      norm_num at this
    rw [Ideal.rsqrt_top, Ideal.pow_top, if_neg h1, if_neg h2]
  | coe r =>
    have hr : (1 : ℝ) ≤ r := by exact_mod_cast hx
    have h0 : 0 < r := by linarith
    rw [Ideal.rsqrt_coe, Ideal.pow_coe_coe, if_neg (by linarith), if_neg (ne_of_gt h0)]
    refine congrArg (fun t : ℝ => (t : EReal)) ?_
    show (Real.sqrt r)⁻¹ = r ^ (-(1 / 2) : ℝ)
    rw [Real.rpow_neg h0.le, Real.sqrt_eq_rpow]

/-- A value clipped from below at the float word of 1.0: its reciprocal square root is its power −1/2. -/
theorem rsqrt_clip_eq_pow (d : EReal) :
    Ideal.rsqrt (max (Ideal.ofBits .f32 0x3F800000#32) d)
      = Ideal.pow (max (Ideal.ofBits .f32 0x3F800000#32) d) (Ideal.ofBits .f32 0xBF000000#32) :=
  rsqrt_eq_pow_of_one_le _ (by rw [Ideal.ofBits_one_f32]; exact le_max_left _ _)

/-- The same with the maximum written the other way round. -/
theorem rsqrt_clip_eq_pow' (d : EReal) :
    Ideal.rsqrt (max d (Ideal.ofBits .f32 0x3F800000#32))
      = Ideal.pow (max d (Ideal.ofBits .f32 0x3F800000#32)) (Ideal.ofBits .f32 0xBF000000#32) :=
  rsqrt_eq_pow_of_one_le _ (by rw [Ideal.ofBits_one_f32]; exact le_max_right _ _)

end Cert.LibRsqrtPow

end
-- ==== Proof.LibGuardedRsqrt.lean ====
/-
  The power −1/2 of a real number, and the guarded reciprocal square root.

  On the real numbers the power x ^ (−1/2) is (√x)⁻¹ for x > 0; it is 0 at x = 0 (a zero base with a non-zero
  exponent), and it is 0 below zero as well, where the real power is exp (−(log x)/2) · cos (−π/2) and the cosine
  vanishes. The reciprocal square root agrees with it above zero only: it is +∞ at zero and undefined (−∞ here) below.
  So for every REAL x the power with the float word of −0.5 as exponent equals the guarded form
  "(√x)⁻¹ where x > 0, and 0 elsewhere", written with the comparison and the select of a program; and that guarded
  value is a non-negative real number. Nothing here depends on a program.
-/
import Idealize.ShloMosaic.PureOps.Ideal
import Idealize.ShloMosaic.PureOps.Ideal.Laws
import proofs.«125442_j28183575396996_2_alg».proof.Proof.LibRsqrtPow

noncomputable section

namespace Cert.LibGuardedRsqrt

open Idealize.ShloMosaic

/-- The guarded reciprocal square root: `(√x)⁻¹` where `x > 0`, zero elsewhere. -/
def guarded (x : EReal) : EReal :=
  Scalar.select (Ideal.cmp .ogt x (0 : EReal)) (Ideal.rsqrt x) (0 : EReal)

/-- The real power −1/2 vanishes at and below zero. -/
theorem rpow_neg_half_of_nonpos (r : ℝ) (hr : r ≤ 0) : Real.rpow r (-(1 / 2)) = 0 := by
  rcases lt_or_eq_of_le hr with h | h
  · show r ^ (-(1 / 2) : ℝ) = 0
    rw [Real.rpow_def_of_neg h]
    have : (-(1 / 2) : ℝ) * Real.pi = -(Real.pi / 2) := by ring
    rw [this, Real.cos_neg, Real.cos_pi_div_two, mul_zero]
  · subst h
    show (0 : ℝ) ^ (-(1 / 2) : ℝ) = 0
    exact Real.zero_rpow (by norm_num)

/-- The real power −1/2 above zero is the reciprocal of the square root. -/
theorem rpow_neg_half_of_pos (r : ℝ) (hr : 0 < r) : Real.rpow r (-(1 / 2)) = (Real.sqrt r)⁻¹ := by
  show r ^ (-(1 / 2) : ℝ) = (Real.sqrt r)⁻¹
  rw [Real.rpow_neg hr.le, Real.sqrt_eq_rpow]

/-- The guarded form at a positive real. -/
theorem guarded_of_pos (r : ℝ) (hr : 0 < r) : guarded (r : EReal) = (((Real.sqrt r)⁻¹ : ℝ) : EReal) := by
  have h : (0 : EReal) < (r : EReal) := by exact_mod_cast hr
  unfold guarded
  simp only [Ideal.cmp, decide_eq_true h, BitVec.ofBool_true, Scalar.select, if_true, Ideal.rsqrt_coe]
  rw [if_neg (not_lt.mpr hr.le), if_neg (ne_of_gt hr)]

/-- The guarded form at a real at or below zero. -/
theorem guarded_of_nonpos (r : ℝ) (hr : r ≤ 0) : guarded (r : EReal) = 0 := by
  have h : ¬ (0 : EReal) < (r : EReal) := by rw [not_lt]; exact_mod_cast hr
  unfold guarded
  simp only [Ideal.cmp, decide_eq_false h, BitVec.ofBool_false, Scalar.select]
  rw [if_neg (by decide)]

/-- For every real number, the power with the float word of −0.5 as exponent is the guarded reciprocal square root. -/
theorem pow_neg_half_eq_guarded (r : ℝ) :
    Ideal.pow (r : EReal) (Ideal.ofBits .f32 0xBF000000#32) = guarded (r : EReal) := by
  rw [Cert.LibRsqrtPow.ofBits_neg_half_f32, Ideal.pow_coe_coe]
  rcases lt_or_ge 0 r with h | h
  · rw [guarded_of_pos r h, rpow_neg_half_of_pos r h]
  · rw [guarded_of_nonpos r h, rpow_neg_half_of_nonpos r h, EReal.coe_zero]

/-- The guarded reciprocal square root of a real number is a non-negative real number. -/
theorem guarded_real (r : ℝ) : ∃ t : ℝ, 0 ≤ t ∧ guarded (r : EReal) = (t : EReal) := by
  rcases lt_or_ge 0 r with h | h
  · exact ⟨(Real.sqrt r)⁻¹, inv_nonneg.mpr (Real.sqrt_nonneg r), guarded_of_pos r h⟩
  · exact ⟨0, le_refl 0, by rw [guarded_of_nonpos r h, EReal.coe_zero]⟩

end Cert.LibGuardedRsqrt

end
-- ==== Proof.RefChain.lean ====
/-
  The reference's host chain on the edge words: its three edge columns and its normalising factors, and two facts about
  them.

  The reference joins the 800000 given destination words with the 50000 loop words into one vector of 850000 words. The
  in-degree of node n is the zero word plus one for every edge whose destination word, read signed, is n: a finite sum
  of ones, hence a real number. The normalising factor of n is the reciprocal square root of that degree where the degree
  is positive and zero elsewhere: the guarded reciprocal square root of a real number, which is a non-negative real.

  Before it reads a factor at a destination, the reference wraps the destination word: a word that is negative read
  signed has 50000 added. An edge that lands on node n has destination word n ≥ 0 read signed, so the wrap keeps the
  word, and clamping n into [0, 49999] changes nothing: the row read at the wrapped destination is n itself.
-/
import proofs.«125442_j28183575396996_2_alg».proof.Proof.RefRead
import proofs.«125442_j28183575396996_2_alg».proof.Proof.Spec
import proofs.«125442_j28183575396996_2_alg».proof.Proof.LibSegmentSum
import proofs.«125442_j28183575396996_2_alg».proof.Proof.LibGatherRows
import proofs.«125442_j28183575396996_2_alg».proof.Proof.LibGuardedRsqrt
import proofs.«125442_j28183575396996_2_alg».proof.Proof.LibRealEntries
import Idealize.ShloMosaic.Lib.IdealHost

noncomputable section

namespace Cert.ReferenceIdeal.RefValue

open Idealize.ShloMosaic Idealize.ShloMosaic.ValueIdx Cert.Gcn Cert.ReferenceIdeal Cert.ReferenceIdeal.Gen
  Cert.ReferenceIdeal.ReadP Cert.SegmentSum Cert.KernelIdeal.Hand Cert.RealEntries Cert.LibGuardedRsqrt

/-- The edge list as the reference receives it: two rows of 800000 words. -/
abbrev Arg6 := (⟨S2x800000, .i32⟩ : BufTy).Contents (Elt Ideal)

/-- the source words: the wrapped sources as a column (the program's %20, equal to its %36) -/
def srcWords (x6 : Arg6) : EdgeWords := val_main_v20 (F := Ideal) x6

/-- the destination words as a column, unwrapped (the program's %9, equal to its %42) -/
def dstWords (x6 : Arg6) : EdgeWords := val_main_v9 (F := Ideal) x6

/-- the normalising factors (the program's %14) -/
def dinv (x6 : Arg6) : Vc 50000 := val_main_v14 (F := Ideal) x6

/-- At the extended reals the host's accumulating scatter is the operand plus the exact sum of the updates that land. -/
theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

/-- The in-degree of node n: the zero word plus one for every edge landing on n. -/
theorem deg_apply (x6 : Arg6) (n : Fin 50000) :
    val_main_v10 (F := Ideal) x6 (ix1 n) = zeroW + ∑ _e ∈ edgesAt (dstWords x6) n, (1 : EReal) := by
  unfold val_main_v10 dstWords
  rw [scatterAdd_ideal]
  refine (scatterAdd_vec_apply _ rfl rfl rfl rfl _ _ _ n).trans ?_
  rw [val_main_v8_apply, val_main_cst_0_apply, Ideal.ofBits_def]
  refine congrArg (fun s => zeroW + s) (Finset.sum_congr rfl fun e _ => ?_)
  rw [val_main_v7_apply, val_main_cst_apply, Ideal.ofBits_def, Ideal.ofBits_one_f32]

/-- The in-degree is a real number. -/
theorem deg_real (x6 : Arg6) (n : Fin 50000) : IsReal (val_main_v10 (F := Ideal) x6 (ix1 n)) := by
  rw [deg_apply]
  exact IsReal.add ⟨0, by show Ideal.ofBits .f32 0x00000000#32 = ((0 : ℝ) : EReal); rw [Ideal.ofBits_zero_f32, EReal.coe_zero]⟩
    (IsReal.sum _ _ fun _ _ => ⟨1, EReal.coe_one.symm⟩)

/-- The factor of node n is the guarded reciprocal square root of its in-degree. -/
theorem dinv_apply (x6 : Arg6) (n : Fin 50000) :
    dinv x6 (ix1 n) = guarded (val_main_v10 (F := Ideal) x6 (ix1 n)) := by
  unfold dinv
  rw [val_main_v14_apply, val_main_v12_apply, val_main_v13_apply, val_main_call0_v1_apply, val_main_call0_v0_apply,
    val_main_cst_2_apply, val_main_v11_apply, val_main_cst_1_apply]
  generalize val_main_v10 (F := Ideal) x6 (ix1 n) = dg
  rw [Ideal.hostUnary_rsqrt_def, Ideal.ofBits_def, Ideal.ofBits_zero_f32]
  rfl

/-- Every normalising factor is a non-negative real number. -/
theorem dinv_nonneg_real (x6 : Arg6) (n : Fin 50000) : ∃ t : ℝ, 0 ≤ t ∧ dinv x6 (ix1 n) = (t : EReal) := by
  obtain ⟨r, hr⟩ := deg_real x6 n
  rw [dinv_apply, hr]
  exact guarded_real r

/-- A word that is not negative read signed is not below zero in the signed comparison. -/
theorem cmpi_slt_zero_of_nonneg (wd : BitVec 32) (h : 0 ≤ wd.toInt) : IntOp.cmpi .slt wd 0#32 = 0#1 := by
  have hlt : wd.slt 0#32 = false := by
    simp only [BitVec.slt, BitVec.toInt_zero, decide_eq_false_iff_not, Int.not_lt]
    exact h
  show BitVec.ofBool (wd.slt 0#32) = 0#1
  rw [hlt]
  rfl

/-- An edge that lands on node n reads row n at its wrapped destination. -/
theorem dstWrap_of_lands (x6 : Arg6) (n : Fin 50000) (e : Fin 850000) (h : e ∈ edgesAt (dstWords x6) n) :
    srcRow (val_main_v27 (F := Ideal) x6) e = n := by
  have hw := (mem_edgesAt (dstWords x6) n e).1 h
  unfold dstWords at hw
  rw [val_main_v9_apply] at hw
  have hidx : idx_main_v9 (ix2 e (0 : Fin 1)) = idx_main_v27 (ix2 e (0 : Fin 1)) := rfl
  rw [hidx] at hw
  refine Fin.ext ?_
  show min ((val_main_v27 (F := Ideal) x6 (ix2 e (0 : Fin 1))).toInt.toNat) (50000 - 1) = n.val
  rw [val_main_v27_apply, val_main_v26_apply, val_main_v23_apply, val_main_v22_apply, val_main_c_4_apply]
  generalize val_main_v25 (F := Ideal) x6 (idx_main_v27 (ix2 e (0 : Fin 1))) = alt
  generalize val_main_v6 (F := Ideal) x6 (idx_main_v27 (ix2 e (0 : Fin 1))) = wd at hw ⊢
  rw [cmpi_slt_zero_of_nonneg wd (by rw [hw]; exact Int.natCast_nonneg _), select_zero, hw, Int.toNat_natCast]
  have := n.isLt
  omega

end Cert.ReferenceIdeal.RefValue

end
-- ==== Proof.LibGatherVec.lean ====
/-
  A gather from a vector read at an index. What `x[idx]` of a vector `x : [N]` at an integer vector lowers to: a gather
  along the one axis with single entries as slices (no offset axis, axis 0 collapsed, slice sizes `[1]`) over the indices
  laid out as a column `[R, 1]`. Result entry `f` is the vector's entry `row f`, where `row f` is the start index at `f`
  read as a signed integer and clamped into `[0, N − 1]`: the same row a gather of whole rows of a table with N rows
  reads at these indices. Nothing here depends on a program.
-/
import Idealize.ShloMosaic.Lib.ValueIdx
import proofs.«125442_j28183575396996_2_alg».proof.Proof.LibGatherRows

namespace Cert.LibGatherVec

open Idealize.ShloMosaic Idealize.ShloMosaic.ValueIdx Cert.KernelIdeal.Hand

variable {α : Type}

/-- The dimension numbers of a gather of single entries from a vector `[N]` at start indices `[R, 1]` into `[R]`; their
    conditions `wf` are decided on a program's literal shapes. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE VECTOR GATHER READ AT `f`: the vector at `rowOf f`, the start index at `f` read signed and clamped. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (f : Fin R) :
    Host.gather (vecDims N R wf) x idx (ix1 f) = x (ix1 (rowOf hN idx f)) := by
  unfold Host.gather
  congr 1
  funext a
  refine Fin.ext ?_
  match a with
  | ⟨0, _⟩ =>
    show (vecDims N R wf).start (ix1 f) idx 0 + (vecDims N R wf).batchCoord (ix1 f) 0
      + (vecDims N R wf).offCoord (ix1 f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N R wf).startIndexMap from List.mem_singleton.mpr rfl)]
    have hsi : (vecDims N R wf).siIdx (ix1 f) ⟨List.idxOf (0 : Fin 1) (vecDims N R wf).startIndexMap,
        List.idxOf_lt_length_iff.2 (List.mem_singleton.mpr rfl)⟩ = ix2 f (0 : Fin 1) := by
      funext b; refine Fin.ext ?_
      match b with
      | ⟨0, _⟩ => rfl
      | ⟨1, _⟩ => rfl
    rw [hsi]
    rfl

end Cert.LibGatherVec
-- ==== Proof.RefValue.lean ====
/-
  The reference's result, entry by entry, is the node-wise form of the graph convolution's update.

  Read outermost first, the result at (n, j) is x(n, j) plus the second layer of the update at (n, j): the sum over the 32
  hidden units k of the hidden layer at (n, k) times W2(k, j), plus b2(j); the hidden layer at (n, k) is the maximum of
  zero and the sum over the 288 feature channels c of the features at (n, c) times W1(c, k), plus b1(k). The features are
  a segment sum: at (n, c) the zero word plus the sum, over the edges whose destination word names n, of the message
  of the edge at channel c. The message of edge e is the projected row of its source node, dense(src e, c), times the
  product of the two endpoint factors, each read from the vector of normalising factors at a node clamped from the
  edge's wrapped word. That is the edge-wise form of the features. Since every factor is a non-negative real number and an
  edge landing on n has n as its wrapped destination, the edge-wise form equals the node-wise form.
-/
import proofs.«125442_j28183575396996_2_alg».proof.Proof.RefChain
import proofs.«125442_j28183575396996_2_alg».proof.Proof.LibGatherVec

noncomputable section

namespace Cert.ReferenceIdeal.RefValue

open Idealize.ShloMosaic Idealize.ShloMosaic.ValueIdx Cert.Gcn Cert.ReferenceIdeal Cert.ReferenceIdeal.Gen
  Cert.ReferenceIdeal.ReadP Cert.SegmentSum Cert.KernelIdeal.Hand Cert.LibGatherVec

/-! ## The index functions of the layout operations, at an index given by its coordinates -/

theorem lidx30 (r : Fin 50000) (c : Fin 288) (k : Fin 96) : lidx_main_v30 (ix2 r c) k = ix2 r k := by
  funext a; match a with | ⟨0, _⟩ => rfl | ⟨1, _⟩ => rfl
theorem ridx30 (r : Fin 50000) (c : Fin 288) (k : Fin 96) : ridx_main_v30 (ix2 r c) k = ix2 k c := by
  funext a; match a with | ⟨0, _⟩ => rfl | ⟨1, _⟩ => rfl
theorem lidx44 (n : Fin 50000) (k : Fin 32) (c : Fin 288) : lidx_main_v44 (ix2 n k) c = ix2 n c := by
  funext a; match a with | ⟨0, _⟩ => rfl | ⟨1, _⟩ => rfl
theorem ridx44 (n : Fin 50000) (k : Fin 32) (c : Fin 288) : ridx_main_v44 (ix2 n k) c = ix2 c k := by
  funext a; match a with | ⟨0, _⟩ => rfl | ⟨1, _⟩ => rfl
theorem lidx49 (n : Fin 50000) (j : Fin 96) (k : Fin 32) : lidx_main_v49 (ix2 n j) k = ix2 n k := by
  funext a; match a with | ⟨0, _⟩ => rfl | ⟨1, _⟩ => rfl
theorem ridx49 (n : Fin 50000) (j : Fin 96) (k : Fin 32) : ridx_main_v49 (ix2 n j) k = ix2 k j := by
  funext a; match a with | ⟨0, _⟩ => rfl | ⟨1, _⟩ => rfl
theorem idx46 (n : Fin 50000) (k : Fin 32) : idx_main_v45 (idx_main_v46 (ix2 n k)) = ix1 k := by
  funext a; match a with | ⟨0, _⟩ => rfl
theorem idx51 (n : Fin 50000) (j : Fin 96) : idx_main_v50 (idx_main_v51 (ix2 n j)) = ix1 j := by
  funext a; match a with | ⟨0, _⟩ => rfl
theorem idx39 (e : Fin 850000) (c : Fin 288) : idx_main_v38 (idx_main_v39 (ix2 e c)) = ix1 e := by
  funext a; match a with | ⟨0, _⟩ => rfl

/-! ## The messages -/

/-- The projected features at (r, c). -/
theorem dense_apply (x0 : (⟨S50000x96, .f32⟩ : BufTy).Contents (Elt Ideal)) (x1 : (⟨S96x288, .f32⟩ : BufTy).Contents (Elt Ideal)) (r : Fin 50000) (c : Fin 288) :
    val_main_v30 (F := Ideal) x0 x1 (ix2 r c) = dense x0 x1 r c := by
  rw [val_main_v30_apply]
  unfold dense
  exact Finset.sum_congr rfl fun k _ => by rw [lidx30, ridx30]

/-- The reference computes the wrapped source column twice; both are the source words. -/
theorem v36_eq (x6 : Arg6) : val_main_v36 (F := Ideal) x6 = srcWords x6 := rfl

/-- The reference lays the destination words out as a column twice; both are the destination words. -/
theorem v42_eq (x6 : Arg6) : val_main_v42 (F := Ideal) x6 = dstWords x6 := rfl

/-- The gathered projected row of edge e at channel c. -/
theorem v37_apply (x0 : (⟨S50000x96, .f32⟩ : BufTy).Contents (Elt Ideal)) (x1 : (⟨S96x288, .f32⟩ : BufTy).Contents (Elt Ideal)) (x6 : Arg6) (e : Fin 850000) (c : Fin 288) :
    val_main_v37 (F := Ideal) x0 x1 x6 (ix2 e c) = dense x0 x1 (srcRow (srcWords x6) e) c := by
  unfold val_main_v37
  rw [v36_eq]
  generalize srcWords x6 = sw
  generalize hy : val_main_v30 (F := Ideal) x0 x1 = y
  have hd : gather_S50000x288_S850000x1_S850000x288_1_0_n_n_0_1_1288
      = rowDims 50000 850000 288 gather_S50000x288_S850000x1_S850000x288_1_0_n_n_0_1_1288_wf := rfl
  rw [hd]
  refine (gather_rows_apply nodes_pos _ y sw e c).trans ?_
  rw [← hy]
  exact dense_apply x0 x1 _ c

/-- The factor gathered at a column of words: the factor of the node the word names, clamped. -/
theorem dinv_gather (x6 : Arg6) (wds : EdgeWords) (e : Fin 850000) :
    Host.gather gather_S50000_S850000x1_S850000_n_0_n_n_0_1_1 (val_main_v14 (F := Ideal) x6) wds (ix1 e)
      = dinv x6 (ix1 (srcRow wds e)) := by
  unfold dinv
  generalize val_main_v14 (F := Ideal) x6 = y
  have hd : gather_S50000_S850000x1_S850000_n_0_n_n_0_1_1
      = vecDims 50000 850000 gather_S50000_S850000x1_S850000_n_0_n_n_0_1_1_wf := rfl
  rw [hd]
  exact gather_vec_apply nodes_pos _ y wds e

/-- The scale of edge e: the product of its two endpoint factors. -/
theorem v39_apply (x6 : Arg6) (e : Fin 850000) (c : Fin 288) :
    val_main_v39 (F := Ideal) x6 (ix2 e c)
      = dinv x6 (ix1 (srcRow (srcWords x6) e)) * dinv x6 (ix1 (srcRow (val_main_v27 (F := Ideal) x6) e)) := by
  rw [val_main_v39_apply, val_main_v38_apply, idx39, val_main_v29_apply, Ideal.mulf_def]
  unfold val_main_v21 val_main_v28
  rw [dinv_gather, dinv_gather]
  rfl

/-- The features the reference sums are the edge-wise form. -/
theorem feat_apply (x0 : (⟨S50000x96, .f32⟩ : BufTy).Contents (Elt Ideal)) (x1 : (⟨S96x288, .f32⟩ : BufTy).Contents (Elt Ideal)) (x6 : Arg6) (n : Fin 50000) (c : Fin 288) :
    val_main_v43 (F := Ideal) x0 x1 x6 (ix2 n c)
      = featEdge x0 x1 (dinv x6) (srcWords x6) (dstWords x6) (val_main_v27 (F := Ideal) x6) n c := by
  unfold val_main_v43 featEdge
  rw [scatterAdd_ideal, v42_eq]
  refine (scatterAdd_rows_apply _ rfl rfl rfl rfl _ _ _ n c).trans ?_
  rw [val_main_v41_apply, val_main_cst_8_apply, Ideal.ofBits_def]
  refine congrArg (fun s => zeroW + s) (Finset.sum_congr rfl fun e _ => ?_)
  rw [val_main_v40_apply, Ideal.mulf_def, v37_apply, v39_apply]

/-! ## The update -/

/-- The hidden layer the reference computes is the hidden layer of the edge-wise features. -/
theorem hidden_apply (x0 : (⟨S50000x96, .f32⟩ : BufTy).Contents (Elt Ideal)) (x1 : (⟨S96x288, .f32⟩ : BufTy).Contents (Elt Ideal)) (x2 : (⟨S288x32, .f32⟩ : BufTy).Contents (Elt Ideal)) (x3 : (⟨S32, .f32⟩ : BufTy).Contents (Elt Ideal)) (x6 : Arg6) (n : Fin 50000) (k : Fin 32) :
    val_main_v48 (F := Ideal) x0 x1 x2 x3 x6 (ix2 n k)
      = Cert.Gcn.hidden (featEdge x0 x1 (dinv x6) (srcWords x6) (dstWords x6) (val_main_v27 (F := Ideal) x6)) x2 x3 n k := by
  rw [val_main_v48_apply, val_main_v47_apply, val_main_v44_apply, val_main_call1_v0_apply, val_main_call1_cst_apply,
    val_main_v46_apply, val_main_v45_apply, idx46, Ideal.maximumf_def, Ideal.addf_def, Ideal.ofBits_def]
  unfold Cert.Gcn.hidden
  refine congrArg (fun s => max (s + x3 (ix1 k)) zeroW) (Finset.sum_congr rfl fun c _ => ?_)
  rw [lidx44, ridx44, feat_apply]

/-- The reference's result at (n, j) is the update of the edge-wise features with its residual. -/
theorem result_at (x0 : (⟨S50000x96, .f32⟩ : BufTy).Contents (Elt Ideal)) (x1 : (⟨S96x288, .f32⟩ : BufTy).Contents (Elt Ideal)) (x2 : (⟨S288x32, .f32⟩ : BufTy).Contents (Elt Ideal)) (x3 : (⟨S32, .f32⟩ : BufTy).Contents (Elt Ideal)) (x4 : (⟨S32x96, .f32⟩ : BufTy).Contents (Elt Ideal)) (x5 : (⟨S96, .f32⟩ : BufTy).Contents (Elt Ideal)) (x6 : Arg6) (n : Fin 50000) (j : Fin 96) :
    val_main_v53 (F := Ideal) x0 x1 x2 x3 x4 x5 x6 (ix2 n j)
      = out (featEdge x0 x1 (dinv x6) (srcWords x6) (dstWords x6) (val_main_v27 (F := Ideal) x6)) x0 x2 x3 x4 x5 n j := by
  rw [val_main_v53_apply, val_main_v52_apply, val_main_v49_apply, val_main_v51_apply, val_main_v50_apply, idx51,
    Ideal.addf_def, Ideal.addf_def]
  unfold out
  refine congrArg (fun s => x0 (ix2 n j) + (s + x5 (ix1 j))) (Finset.sum_congr rfl fun k _ => ?_)
  rw [lidx49, ridx49, hidden_apply]

/-- THE REFERENCE'S RESULT: the update of the node-wise features, entry by entry. -/
theorem result_eq (x0 : (⟨S50000x96, .f32⟩ : BufTy).Contents (Elt Ideal)) (x1 : (⟨S96x288, .f32⟩ : BufTy).Contents (Elt Ideal)) (x2 : (⟨S288x32, .f32⟩ : BufTy).Contents (Elt Ideal)) (x3 : (⟨S32, .f32⟩ : BufTy).Contents (Elt Ideal)) (x4 : (⟨S32x96, .f32⟩ : BufTy).Contents (Elt Ideal)) (x5 : (⟨S96, .f32⟩ : BufTy).Contents (Elt Ideal)) (x6 : Arg6) :
    val_main_v53 (F := Ideal) x0 x1 x2 x3 x4 x5 x6
      = fun i => out (featNode x0 x1 (dinv x6) (srcWords x6) (dstWords x6)) x0 x2 x3 x4 x5 (i 0) (i 1) := by
  funext i
  refine (congrArg (val_main_v53 (F := Ideal) x0 x1 x2 x3 x4 x5 x6) (eq_ix2 i)).trans ?_
  refine (result_at x0 x1 x2 x3 x4 x5 x6 (i 0) (i 1)).trans ?_
  exact (out_congr _ _ (fun n c => featNode_eq_featEdge x0 x1 (dinv x6) (srcWords x6) (dstWords x6)
    (val_main_v27 (F := Ideal) x6) (dinv_nonneg_real x6) (dstWrap_of_lands x6) n c) x0 x2 x3 x4 x5 (i 0) (i 1)).symm

end Cert.ReferenceIdeal.RefValue

end
-- ==== Proof.lean ====
/-
  The kernel computes a graph convolution with symmetric degree normalisation and a two-layer update; the reference
  computes the same quantity edge by edge.

  Both programs count each node's in-degree d(n) over the 850000 edges (the given ones and one self-loop per node) and
  take the factor dinv(n) = d(n)^(-1/2) where d(n) > 0, zero elsewhere.  The reference scales every message by both
  endpoint factors and sums the messages landing on a node; the kernel scales each projected row once by its own
  factor in its first launch, lets the host sum the rows landing on a node, and scales the sum once by the receiving
  node's factor in its second launch, which also applies the update relu(feat · W1 + b1) · W2 + b2 and the residual.
  At the ideal values both results are, entry by entry, one function of the arguments (Proof/Spec.lean): every factor
  is a non-negative real number, multiplication by a non-negative real distributes over any finite sum of extended
  reals, and multiplication is associative, so no finiteness of x or of the weights is used.  The reference's side is
  read one operation at a time (Proof/RefValue.lean over the program's run); the kernel's side through its two
  launches, each output array as one whole-array function of the arrays the launch finds (Proof/KReg0.lean,
  Proof/KReg1.lean), and its four stretches of host operations (Proof/KHost.lean, Proof/KValue.lean).  The two
  programs spell the shared host operations identically, so their index words and factors are the same terms.
-/
import proofs.«125442_j28183575396996_2_alg».proof.Defs
import proofs.«125442_j28183575396996_2_alg».proof.Proof.Gen.Kernel
import proofs.«125442_j28183575396996_2_alg».proof.Proof.Gen.Kernel.Skeleton
import proofs.«125442_j28183575396996_2_alg».proof.Proof.Gen.Kernel.Launch
import proofs.«125442_j28183575396996_2_alg».proof.Proof.Gen.Kernel.Points
import proofs.«125442_j28183575396996_2_alg».proof.Proof.Gen.Kernel.Frame
import proofs.«125442_j28183575396996_2_alg».proof.Proof.Gen.KernelIdeal
import proofs.«125442_j28183575396996_2_alg».proof.Proof.Gen.KernelIdeal.Skeleton
import proofs.«125442_j28183575396996_2_alg».proof.Proof.Gen.KernelIdeal.Launch
import proofs.«125442_j28183575396996_2_alg».proof.Proof.Gen.KernelIdeal.Points
import proofs.«125442_j28183575396996_2_alg».proof.Proof.Gen.KernelIdeal.Frame
import proofs.«125442_j28183575396996_2_alg».proof.Proof.Gen.ReferenceIdeal
import proofs.«125442_j28183575396996_2_alg».proof.Proof.Gen.Pre_finite_inputs
import proofs.«125442_j28183575396996_2_alg».proof.Proof.KValue
import proofs.«125442_j28183575396996_2_alg».proof.Proof.RefRun
import proofs.«125442_j28183575396996_2_alg».proof.Proof.RefValue
import Idealize.ShloMosaic.Adequacy
import Idealize.ShloMosaic.Init

set_option maxRecDepth 16384

noncomputable section

namespace Cert.Proof

open Idealize.ShloMosaic Idealize.SL.Sem

/-- The two programs build the factors by the same operations of the edge list. -/
theorem dinv_eq (x6 : Cert.KernelIdeal.KHost.Arg6) :
    Cert.ReferenceIdeal.RefValue.dinv x6 = Cert.KernelIdeal.KHost.dinv x6 := rfl

/-- The two programs build the wrapped source column by the same operations of the edge list. -/
theorem srcWords_eq (x6 : Cert.KernelIdeal.KHost.Arg6) :
    Cert.ReferenceIdeal.RefValue.srcWords x6 = Cert.KernelIdeal.KValue.srcWords x6 := rfl

/-- The two programs build the destination column by the same operations of the edge list. -/
theorem dstWords_eq (x6 : Cert.KernelIdeal.KHost.Arg6) :
    Cert.ReferenceIdeal.RefValue.dstWords x6 = Cert.KernelIdeal.KValue.dstWords x6 := rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories agreeing on the arguments both programs end with the node-wise form of the arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_eq, (hagree c).1, (hagree c).2.1, (hagree c).2.2.1, (hagree c).2.2.2.1,
    (hagree c).2.2.2.2.1, (hagree c).2.2.2.2.2.1, (hagree c).2.2.2.2.2.2, dinv_eq, srcWords_eq, dstWords_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
